-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8000 : Shape := ⟨2, ![8192, 8000]⟩
abbrev S_ : Shape := ⟨0, ![]⟩

class Facts : Prop where
  bcast_S_S8192x8000 : S_.BroadcastsInDim S8192x8000 (![] : Fin 0 → Fin S8192x8000.rank)
  reducesTo_S8192x8000_S_d0_1 : S8192x8000.ReducesTo [0, 1] S_
  h_S_ : 0 < S_.numel

variable [Facts]

def fn {F : FTy → Type} [FloatOps F] (main_arg0 : FVec F S8192x8000 .f32) (main_arg1 : FVec F S8192x8000 .f32) : IVec S_ 1 :=
  let main_v0 : FVec F S8192x8000 .f32 := Host.absf main_arg0
  let main_cst : FVec F S_ .f32 := constant S_ .f32 0x7F800000#32
  let main_v1 : FVec F S8192x8000 .f32 := broadcastInDim S8192x8000 ![] bcast_S_S8192x8000 main_cst
  let main_v2 : IVec S8192x8000 1 := cmpf .olt main_v0 main_v1
  let main_c : IVec S_ 1 := constantI S_ 1 1#1
  let main_v3 : IVec S_ 1 := (fun x v => Host.reduce IntOp.andi x v reducesTo_S8192x8000_S_d0_1 h_S_) main_v2 main_c
  let main_v4 : FVec F S8192x8000 .f32 := Host.absf main_arg1
  let main_cst_0 : FVec F S_ .f32 := constant S_ .f32 0x7F800000#32
  let main_v5 : FVec F S8192x8000 .f32 := broadcastInDim S8192x8000 ![] bcast_S_S8192x8000 main_cst_0
  let main_v6 : IVec S8192x8000 1 := cmpf .olt main_v4 main_v5
  let main_c_1 : IVec S_ 1 := constantI S_ 1 1#1
  let main_v7 : IVec S_ 1 := (fun x v => Host.reduce IntOp.andi x v reducesTo_S8192x8000_S_d0_1 h_S_) main_v6 main_c_1
  let main_v8 : IVec S_ 1 := andi main_v3 main_v7
  main_v8
-- ==== Kernel.lean ====
abbrev S8192x8000 : Shape := ⟨2, ![8192, 8000]⟩
abbrev S8192x1 : Shape := ⟨2, ![8192, 1]⟩
abbrev S128x8000 : Shape := ⟨2, ![128, 8000]⟩
abbrev S128x1 : Shape := ⟨2, ![128, 1]⟩
abbrev S128 : Shape := ⟨1, ![128]⟩
abbrev S8192 : Shape := ⟨1, ![8192]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S8192x8000, .f32⟩
  | .hbm, ⟨1, _⟩ => ⟨S8192x8000, .f32⟩
  | .hbm, ⟨2, _⟩ => ⟨S8192x1, .f32⟩
  | .hbm, ⟨3, _⟩ => ⟨S8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S128x8000, .f32⟩
  | .local _ .vmem, ⟨1, _⟩ => ⟨S128x8000, .f32⟩
  | .local _ .vmem, ⟨2, _⟩ => ⟨S128x8000, .f32⟩
  | .local _ .vmem, ⟨3, _⟩ => ⟨S128x8000, .f32⟩
  | .local _ .vmem, ⟨4, _⟩ => ⟨S128x1, .f32⟩
  | .local _ .vmem, ⟨5, _⟩ => ⟨S128x1, .f32⟩
  | _, _ => ⟨S8192x8000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x8000_S128x8000_0_0 : ∀ a, (![0, 0] : Fin 2 → Nat) a + S128x8000.size a ≤ S128x8000.size a
  h_S128x8000 : 0 < S128x8000.numel
  reduces_S128x8000_S128 : S128x8000.Reduces [1] S128
  shapeCasts_S128_S128x1 : S128.ShapeCasts S128x1
  broadcasts_S128x1_S128x8000 : S128x1.Broadcasts S128x8000
  inb_S128x1_S128x1_0_0 : ∀ a, (![0, 0] : Fin 2 → Nat) a + S128x1.size a ≤ S128x1.size a
  h_S128x1 : 0 < S128x1.numel
  shapeCasts_S8192x1_S8192 : S8192x1.ShapeCasts S8192
  reducesTo_S8192_S_d0 : S8192.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8000.size a ≤ S8192x8000.size a
  hwx0_0 : ∀ i : grid0.Coords, EltTy.bits .f32 = 32 ∨ (Rect.block (s := S8192x8000) S128x8000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8000.size a ≤ S8192x8000.size a
  hwx0_1 : ∀ i : grid0.Coords, EltTy.bits .f32 = 32 ∨ (Rect.block (s := S8192x8000) S128x8000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .f32 = 32 ∨ (Rect.block (s := S8192x1) S128x1.size (cc0_transform_2 i) (hinb0_2 i)).WholeWords (EltTy.packing .f32)

variable [Facts₀]

abbrev win0_0 : Pipeline.Window sig grid0 :=
  Pipeline.Window.ofSpec (Memref.whole main_arg0) S128x8000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x8000 : Shape := ⟨2, ![8192, 8000]⟩
abbrev S_ : Shape := ⟨0, ![]⟩
abbrev S8192 : Shape := ⟨1, ![8192]⟩
abbrev S8192x1 : Shape := ⟨2, ![8192, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x8000, .f32⟩
  | .hbm, ⟨1, _⟩ => ⟨S8192x8000, .f32⟩
  | .hbm, ⟨2, _⟩ => ⟨S_, .f32⟩
  | .hbm, ⟨3, _⟩ => ⟨S8192x8000, .f32⟩
  | .hbm, ⟨4, _⟩ => ⟨S8192x8000, .i1⟩
  | .hbm, ⟨5, _⟩ => ⟨S_, .f32⟩
  | .hbm, ⟨6, _⟩ => ⟨S8192x8000, .f32⟩
  | .hbm, ⟨7, _⟩ => ⟨S8192x8000, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192x1, .f32⟩
  | .hbm, ⟨14, _⟩ => ⟨S8192x8000, .f32⟩
  | .hbm, ⟨15, _⟩ => ⟨S8192x8000, .f32⟩
  | .hbm, ⟨16, _⟩ => ⟨S8192x8000, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x1, .f32⟩
  | .hbm, ⟨21, _⟩ => ⟨S8192x8000, .f32⟩
  | .hbm, ⟨22, _⟩ => ⟨S8192x8000, .f32⟩
  | .hbm, ⟨23, _⟩ => ⟨S8192x8000, .f32⟩
  | .hbm, ⟨24, _⟩ => ⟨S8192x8000, .f32⟩
  | .hbm, ⟨25, _⟩ => ⟨S_, .f32⟩
  | .hbm, ⟨26, _⟩ => ⟨S_, .f32⟩
  | .hbm, ⟨27, _⟩ => ⟨S8192x8000, .f32⟩
  | .hbm, ⟨28, _⟩ => ⟨S8192x8000, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S8192x8000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_call0_v0 : Ref sig .tc := ⟨.hbm, 6, rfl⟩
abbrev main_v2 : Ref sig .tc := ⟨.hbm, 7, rfl⟩
abbrev main_call1_cst : Ref sig .tc := ⟨.hbm, 8, rfl⟩
abbrev main_call1_v0 : Ref sig .tc := ⟨.hbm, 9, rfl⟩
abbrev main_call1_cst_0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_v6 : Ref sig .tc := ⟨.hbm, 16, rfl⟩
abbrev main_call1_cst_1 : Ref sig .tc := ⟨.hbm, 17, rfl⟩
abbrev main_call1_v7 : Ref sig .tc := ⟨.hbm, 18, rfl⟩
abbrev main_call1_v8 : Ref sig .tc := ⟨.hbm, 19, rfl⟩
abbrev main_call1_v9 : Ref sig .tc := ⟨.hbm, 20, rfl⟩
abbrev main_call1_v10 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst_1 : Ref sig .tc := ⟨.hbm, 25, rfl⟩
abbrev main_call2_v0 : Ref sig .tc := ⟨.hbm, 26, rfl⟩
abbrev main_call2_v1 : Ref sig .tc := ⟨.hbm, 27, rfl⟩
abbrev main_v6 : Ref sig .tc := ⟨.hbm, 28, rfl⟩
abbrev main_cst_2 : Ref sig .tc := ⟨.hbm, 29, rfl⟩
abbrev main_v7 : Ref sig .tc := ⟨.hbm, 30, rfl⟩
abbrev main_cst_3 : Ref sig .tc := ⟨.hbm, 31, rfl⟩
abbrev main_v8 : Ref sig .tc := ⟨.hbm, 32, rfl⟩
abbrev main_cst_4 : Ref sig .tc := ⟨.hbm, 33, rfl⟩
abbrev main_v9 : Ref sig .tc := ⟨.hbm, 34, rfl⟩

abbrev nD : Nat := 1
abbrev τ : Topo := Topo.v7x

variable {F : FTy → Type} [FloatOps F]

class Facts₀ : Prop where
  bcast_S_S8192x8000 : S_.BroadcastsInDim S8192x8000 (![] : Fin 0 → Fin S8192x8000.rank)
  reducesTo_S8192x8000_S8192_d1 : S8192x8000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8000_0_1 : S8192x1.BroadcastsInDim S8192x8000 (![0, 1] : Fin 2 → Fin S8192x8000.rank)
  reducesTo_S8192_S_d0 : S8192.ReducesTo [0] S_

variable [Facts₀]

class Facts : Prop extends Facts₀ where

variable [Facts]
-- ==== Proof.HostRun.lean ====
/-
  The reference program's run.

  The reference is a straight line of 33 host operations (the three outlined helpers — the two selects and the
  log-softmax — stand inline at their calls). Read in order they compute, from the logits `p` and the targets `t`:
  the keep-mask `t ≥ -1e-6`; the masked logits (a kept class keeps its logit, a dropped one gets the least finite
  float); each row's maximum; the logits shifted by their row's maximum; the logarithm of each row's sum of
  exponentials; the log-softmax; per kept class `(-t) · logsoftmax`, a dropped class contributing zero; each row's
  sum of those; and the mean of the 8192 row sums. The stages are named below. The line falls into four
  stretches — the mask and the masked logits, the shift by the row maxima, the log-sum-exp, the loss and its mean — and what each stretch leaves
  in its buffers is stated from an arbitrary valuation; the whole line is the four in turn.
  `run` says that every weakly fair execution ends with the result buffer at `meanLoss` of the argument arrays, the
  arguments unchanged.
-/
import proofs.«132058_j50354196578629_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- Which classes count: the target is at least the (slightly negative) threshold. -/
def keepMask (t : FVec F S8192x8000 .f32) : IVec S8192x8000 1 :=
  cmpf .oge t (broadcastInDim S8192x8000 ![] bcast_S_S8192x8000 (constant S_ .f32 0xB58637BD#32))

/-- A kept class keeps its logit; a dropped class gets the least finite float. -/
def maskedLogits (p t : FVec F S8192x8000 .f32) : FVec F S8192x8000 .f32 :=
  select (keepMask t) p (broadcastInDim S8192x8000 ![] bcast_S_S8192x8000 (constant S_ .f32 0xFF7FFFFF#32))

/-- Each row's greatest entry (the maximum taken once more with minus infinity, as the log-softmax spells it). -/
def rowMaxes (l : FVec F S8192x8000 .f32) : FVec F S8192 .f32 :=
  maximumf (broadcastInDim S8192 ![] bcast_S_S8192 (constant S_ .f32 0xFF800000#32))
    (Host.reduce FloatOps.maximumf l (constant S_ .f32 0xFF800000#32) reducesTo_S8192x8000_S8192_d1 h_S_)

/-- Every entry less its row's greatest entry. -/
def shifted (l : FVec F S8192x8000 .f32) : FVec F S8192x8000 .f32 :=
  subf l (broadcastInDim S8192x8000 ![0, 1] bcast_S8192x1_S8192x8000_0_1
    (broadcastInDim S8192x1 ![0] bcast_S8192_S8192x1_0 (rowMaxes l)))

/-- Each row's logarithm of the sum of the exponentials of its (already shifted) entries, as a column. -/
def logSumExp (s : FVec F S8192x8000 .f32) : FVec F S8192x1 .f32 :=
  Host.log (broadcastInDim S8192x1 ![0] bcast_S8192_S8192x1_0
    (Host.reduceAdd (Host.exp s) (constant S_ .f32 0x00000000#32) reducesTo_S8192x8000_S8192_d1 h_S_))

/-- Shifted entries less their row's log-sum-exp. -/
def lessLogSumExp (s : FVec F S8192x8000 .f32) : FVec F S8192x8000 .f32 :=
  subf s (broadcastInDim S8192x8000 ![0, 1] bcast_S8192x1_S8192x8000_0_1 (logSumExp s))

/-- The logarithm of the softmax along each row. -/
def logSoftmax (l : FVec F S8192x8000 .f32) : FVec F S8192x8000 .f32 :=
  lessLogSumExp (shifted l)

/-- Each row's loss from a keep-mask, the targets and a table of log-probabilities: the sum over the kept classes of
    minus the target times the log-probability. -/
def rowLossesOf (k : IVec S8192x8000 1) (t ls : FVec F S8192x8000 .f32) : FVec F S8192 .f32 :=
  Host.reduceAdd
    (select k (mulf (Host.negf t) ls)
      (broadcastInDim S8192x8000 ![] bcast_S_S8192x8000 (id (constant S_ .f32 0x00000000#32))))
    (constant S_ .f32 0x00000000#32) reducesTo_S8192x8000_S8192_d1 h_S_

/-- The mean of 8192 row values. -/
def meanOfRows (v : FVec F S8192 .f32) : FVec F S_ .f32 :=
  Host.divf (Host.reduceAdd v (constant S_ .f32 0x00000000#32) reducesTo_S8192_S_d0 h_S_)
    (constant S_ .f32 0x46000000#32)

/-- Each row's loss from the logits and the targets. -/
def rowLosses (p t : FVec F S8192x8000 .f32) : FVec F S8192 .f32 :=
  rowLossesOf (keepMask t) t (logSoftmax (maskedLogits p t))

/-- The mean of the 8192 row losses. -/
def meanLoss (p t : FVec F S8192x8000 .f32) : FVec F S_ .f32 :=
  meanOfRows (rowLosses p t)

/-! ## The operations, in order -/

abbrev ops : List (HloOp τ sig (Elt F)) :=
  [ nullary main_cst (constant S_ .f32 0xB58637BD#32),
    unary main_cst main_v0 (broadcastInDim S8192x8000 ![] bcast_S_S8192x8000 : (⟨S_, .f32⟩ : BufTy).Contents (Elt F) → (⟨S8192x8000, .f32⟩ : BufTy).Contents (Elt F)),
    binary main_arg1 main_v0 main_v1 (cmpf .oge : (⟨S8192x8000, .f32⟩ : BufTy).Contents (Elt F) → (⟨S8192x8000, .f32⟩ : BufTy).Contents (Elt F) → (⟨S8192x8000, .i1⟩ : BufTy).Contents (Elt F)),
    nullary main_cst_0 (constant S_ .f32 0xFF7FFFFF#32),
    TRef.unary (TRef.of (T := ⟨S_, .f32⟩) main_cst_0) (TRef.of (T := ⟨S8192x8000, .f32⟩) main_call0_v0) (broadcastInDim S8192x8000 ![] bcast_S_S8192x8000),
    TRef.ternary (TRef.of (T := ⟨S8192x8000, .i1⟩) main_v1) (TRef.of (T := ⟨S8192x8000, .f32⟩) main_arg0) (TRef.of (T := ⟨S8192x8000, .f32⟩) main_call0_v0) (TRef.of (T := ⟨S8192x8000, .f32⟩) main_v2) select,
    TRef.nullary (TRef.of (T := ⟨S_, .f32⟩) main_call1_cst) (constant S_ .f32 0xFF800000#32),
    TRef.binary (TRef.of (T := ⟨S8192x8000, .f32⟩) main_v2) (TRef.of (T := ⟨S_, .f32⟩) main_call1_cst) (TRef.of (T := ⟨S8192, .f32⟩) main_call1_v0) (fun x v => Host.reduce FloatOps.maximumf x v reducesTo_S8192x8000_S8192_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S8192, .f32⟩) main_call1_v1) (broadcastInDim S8192 ![] bcast_S_S8192),
    TRef.binary (TRef.of (T := ⟨S8192, .f32⟩) main_call1_v1) (TRef.of (T := ⟨S8192, .f32⟩) main_call1_v0) (TRef.of (T := ⟨S8192, .f32⟩) main_call1_v2) maximumf,
    TRef.unary (TRef.of (T := ⟨S8192, .f32⟩) main_call1_v2) (TRef.of (T := ⟨S8192x1, .f32⟩) main_call1_v3) (broadcastInDim S8192x1 ![0] bcast_S8192_S8192x1_0),
    TRef.unary (TRef.of (T := ⟨S8192x1, .f32⟩) main_call1_v3) (TRef.of (T := ⟨S8192x8000, .f32⟩) main_call1_v4) (broadcastInDim S8192x8000 ![0, 1] bcast_S8192x1_S8192x8000_0_1),
    TRef.binary (TRef.of (T := ⟨S8192x8000, .f32⟩) main_v2) (TRef.of (T := ⟨S8192x8000, .f32⟩) main_call1_v4) (TRef.of (T := ⟨S8192x8000, .f32⟩) main_call1_v5) subf,
    TRef.unary (TRef.of (T := ⟨S8192x8000, .f32⟩) main_call1_v5) (TRef.of (T := ⟨S8192x8000, .f32⟩) main_call1_v6) Host.exp,
    TRef.nullary (TRef.of (T := ⟨S_, .f32⟩) main_call1_cst_1) (constant S_ .f32 0x00000000#32),
    TRef.binary (TRef.of (T := ⟨S8192x8000, .f32⟩) main_call1_v6) (TRef.of (T := ⟨S_, .f32⟩) main_call1_cst_1) (TRef.of (T := ⟨S8192, .f32⟩) main_call1_v7) (fun x v => Host.reduceAdd x v reducesTo_S8192x8000_S8192_d1 h_S_),
    TRef.unary (TRef.of (T := ⟨S8192, .f32⟩) main_call1_v7) (TRef.of (T := ⟨S8192x1, .f32⟩) main_call1_v8) (broadcastInDim S8192x1 ![0] bcast_S8192_S8192x1_0),
    TRef.unary (TRef.of (T := ⟨S8192x1, .f32⟩) main_call1_v8) (TRef.of (T := ⟨S8192x1, .f32⟩) main_call1_v9) Host.log,
    TRef.unary (TRef.of (T := ⟨S8192x1, .f32⟩) main_call1_v9) (TRef.of (T := ⟨S8192x8000, .f32⟩) main_call1_v10) (broadcastInDim S8192x8000 ![0, 1] bcast_S8192x1_S8192x8000_0_1),
    TRef.binary (TRef.of (T := ⟨S8192x8000, .f32⟩) main_call1_v5) (TRef.of (T := ⟨S8192x8000, .f32⟩) main_call1_v10) (TRef.of (T := ⟨S8192x8000, .f32⟩) main_v3) subf,
    unary main_arg1 main_v4 (Host.negf : (⟨S8192x8000, .f32⟩ : BufTy).Contents (Elt F) → (⟨S8192x8000, .f32⟩ : BufTy).Contents (Elt F)),
    binary main_v4 main_v3 main_v5 (mulf : (⟨S8192x8000, .f32⟩ : BufTy).Contents (Elt F) → (⟨S8192x8000, .f32⟩ : BufTy).Contents (Elt F) → (⟨S8192x8000, .f32⟩ : BufTy).Contents (Elt F)),
    nullary main_cst_1 (constant S_ .f32 0x00000000#32),
    TRef.unary (TRef.of (T := ⟨S_, .f32⟩) main_cst_1) (TRef.of (T := ⟨S_, .f32⟩) main_call2_v0) id,
    TRef.unary (TRef.of (T := ⟨S_, .f32⟩) main_call2_v0) (TRef.of (T := ⟨S8192x8000, .f32⟩) main_call2_v1) (broadcastInDim S8192x8000 ![] bcast_S_S8192x8000),
    TRef.ternary (TRef.of (T := ⟨S8192x8000, .i1⟩) main_v1) (TRef.of (T := ⟨S8192x8000, .f32⟩) main_v5) (TRef.of (T := ⟨S8192x8000, .f32⟩) main_call2_v1) (TRef.of (T := ⟨S8192x8000, .f32⟩) main_v6) select,
    nullary main_cst_2 (constant S_ .f32 0x00000000#32),
    binary main_v6 main_cst_2 main_v7 ((fun x v => Host.reduceAdd x v reducesTo_S8192x8000_S8192_d1 h_S_) : (⟨S8192x8000, .f32⟩ : BufTy).Contents (Elt F) → (⟨S_, .f32⟩ : BufTy).Contents (Elt F) → (⟨S8192, .f32⟩ : BufTy).Contents (Elt F)),
    nullary main_cst_3 (constant S_ .f32 0x00000000#32),
    binary main_v7 main_cst_3 main_v8 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_4 (constant S_ .f32 0x46000000#32),
    binary main_v8 main_cst_4 main_v9 (Host.divf : (⟨S_, .f32⟩ : BufTy).Contents (Elt F) → (⟨S_, .f32⟩ : BufTy).Contents (Elt F) → (⟨S_, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., binary_bufs_sub ..⟩

/-! ## The helpers' operations as plain operations

A helper's operation names its buffers together with the type of the value they hold; at these literal buffers that
type is the buffer's own, so each such operation is the plain operation on the same buffers with the same function.
One equation per operation, for ANY function, and then the whole line. -/

theorem plain_4 (f : (⟨S_, .f32⟩ : BufTy).Contents (Elt F) → (⟨S8192x8000, .f32⟩ : BufTy).Contents (Elt F)) :
    (TRef.unary (TRef.of (T := ⟨S_, .f32⟩) main_cst_0) (TRef.of (T := ⟨S8192x8000, .f32⟩) main_call0_v0) f : HloOp τ sig (Elt F)) = unary main_cst_0 main_call0_v0 f := rfl
theorem plain_5 (f : (⟨S8192x8000, .i1⟩ : BufTy).Contents (Elt F) → (⟨S8192x8000, .f32⟩ : BufTy).Contents (Elt F) → (⟨S8192x8000, .f32⟩ : BufTy).Contents (Elt F) → (⟨S8192x8000, .f32⟩ : BufTy).Contents (Elt F)) :
    (TRef.ternary (TRef.of (T := ⟨S8192x8000, .i1⟩) main_v1) (TRef.of (T := ⟨S8192x8000, .f32⟩) main_arg0) (TRef.of (T := ⟨S8192x8000, .f32⟩) main_call0_v0) (TRef.of (T := ⟨S8192x8000, .f32⟩) main_v2) f : HloOp τ sig (Elt F)) = ternary main_v1 main_arg0 main_call0_v0 main_v2 f := rfl
theorem plain_6 (v : (⟨S_, .f32⟩ : BufTy).Contents (Elt F)) :
    (TRef.nullary (TRef.of (T := ⟨S_, .f32⟩) main_call1_cst) v : HloOp τ sig (Elt F)) = nullary main_call1_cst v := rfl
theorem plain_7 (f : (⟨S8192x8000, .f32⟩ : BufTy).Contents (Elt F) → (⟨S_, .f32⟩ : BufTy).Contents (Elt F) → (⟨S8192, .f32⟩ : BufTy).Contents (Elt F)) :
    (TRef.binary (TRef.of (T := ⟨S8192x8000, .f32⟩) main_v2) (TRef.of (T := ⟨S_, .f32⟩) main_call1_cst) (TRef.of (T := ⟨S8192, .f32⟩) main_call1_v0) f : HloOp τ sig (Elt F)) = binary main_v2 main_call1_cst main_call1_v0 f := rfl
theorem plain_8 (v : (⟨S_, .f32⟩ : BufTy).Contents (Elt F)) :
    (TRef.nullary (TRef.of (T := ⟨S_, .f32⟩) main_call1_cst_0) v : HloOp τ sig (Elt F)) = nullary main_call1_cst_0 v := rfl
theorem plain_9 (f : (⟨S_, .f32⟩ : BufTy).Contents (Elt F) → (⟨S8192, .f32⟩ : BufTy).Contents (Elt F)) :
    (TRef.unary (TRef.of (T := ⟨S_, .f32⟩) main_call1_cst_0) (TRef.of (T := ⟨S8192, .f32⟩) main_call1_v1) f : HloOp τ sig (Elt F)) = unary main_call1_cst_0 main_call1_v1 f := rfl
theorem plain_10 (f : (⟨S8192, .f32⟩ : BufTy).Contents (Elt F) → (⟨S8192, .f32⟩ : BufTy).Contents (Elt F) → (⟨S8192, .f32⟩ : BufTy).Contents (Elt F)) :
    (TRef.binary (TRef.of (T := ⟨S8192, .f32⟩) main_call1_v1) (TRef.of (T := ⟨S8192, .f32⟩) main_call1_v0) (TRef.of (T := ⟨S8192, .f32⟩) main_call1_v2) f : HloOp τ sig (Elt F)) = binary main_call1_v1 main_call1_v0 main_call1_v2 f := rfl
theorem plain_11 (f : (⟨S8192, .f32⟩ : BufTy).Contents (Elt F) → (⟨S8192x1, .f32⟩ : BufTy).Contents (Elt F)) :
    (TRef.unary (TRef.of (T := ⟨S8192, .f32⟩) main_call1_v2) (TRef.of (T := ⟨S8192x1, .f32⟩) main_call1_v3) f : HloOp τ sig (Elt F)) = unary main_call1_v2 main_call1_v3 f := rfl
theorem plain_12 (f : (⟨S8192x1, .f32⟩ : BufTy).Contents (Elt F) → (⟨S8192x8000, .f32⟩ : BufTy).Contents (Elt F)) :
    (TRef.unary (TRef.of (T := ⟨S8192x1, .f32⟩) main_call1_v3) (TRef.of (T := ⟨S8192x8000, .f32⟩) main_call1_v4) f : HloOp τ sig (Elt F)) = unary main_call1_v3 main_call1_v4 f := rfl
theorem plain_13 (f : (⟨S8192x8000, .f32⟩ : BufTy).Contents (Elt F) → (⟨S8192x8000, .f32⟩ : BufTy).Contents (Elt F) → (⟨S8192x8000, .f32⟩ : BufTy).Contents (Elt F)) :
    (TRef.binary (TRef.of (T := ⟨S8192x8000, .f32⟩) main_v2) (TRef.of (T := ⟨S8192x8000, .f32⟩) main_call1_v4) (TRef.of (T := ⟨S8192x8000, .f32⟩) main_call1_v5) f : HloOp τ sig (Elt F)) = binary main_v2 main_call1_v4 main_call1_v5 f := rfl
theorem plain_14 (f : (⟨S8192x8000, .f32⟩ : BufTy).Contents (Elt F) → (⟨S8192x8000, .f32⟩ : BufTy).Contents (Elt F)) :
    (TRef.unary (TRef.of (T := ⟨S8192x8000, .f32⟩) main_call1_v5) (TRef.of (T := ⟨S8192x8000, .f32⟩) main_call1_v6) f : HloOp τ sig (Elt F)) = unary main_call1_v5 main_call1_v6 f := rfl
theorem plain_15 (v : (⟨S_, .f32⟩ : BufTy).Contents (Elt F)) :
    (TRef.nullary (TRef.of (T := ⟨S_, .f32⟩) main_call1_cst_1) v : HloOp τ sig (Elt F)) = nullary main_call1_cst_1 v := rfl
theorem plain_16 (f : (⟨S8192x8000, .f32⟩ : BufTy).Contents (Elt F) → (⟨S_, .f32⟩ : BufTy).Contents (Elt F) → (⟨S8192, .f32⟩ : BufTy).Contents (Elt F)) :
    (TRef.binary (TRef.of (T := ⟨S8192x8000, .f32⟩) main_call1_v6) (TRef.of (T := ⟨S_, .f32⟩) main_call1_cst_1) (TRef.of (T := ⟨S8192, .f32⟩) main_call1_v7) f : HloOp τ sig (Elt F)) = binary main_call1_v6 main_call1_cst_1 main_call1_v7 f := rfl
theorem plain_17 (f : (⟨S8192, .f32⟩ : BufTy).Contents (Elt F) → (⟨S8192x1, .f32⟩ : BufTy).Contents (Elt F)) :
    (TRef.unary (TRef.of (T := ⟨S8192, .f32⟩) main_call1_v7) (TRef.of (T := ⟨S8192x1, .f32⟩) main_call1_v8) f : HloOp τ sig (Elt F)) = unary main_call1_v7 main_call1_v8 f := rfl
theorem plain_18 (f : (⟨S8192x1, .f32⟩ : BufTy).Contents (Elt F) → (⟨S8192x1, .f32⟩ : BufTy).Contents (Elt F)) :
    (TRef.unary (TRef.of (T := ⟨S8192x1, .f32⟩) main_call1_v8) (TRef.of (T := ⟨S8192x1, .f32⟩) main_call1_v9) f : HloOp τ sig (Elt F)) = unary main_call1_v8 main_call1_v9 f := rfl
theorem plain_19 (f : (⟨S8192x1, .f32⟩ : BufTy).Contents (Elt F) → (⟨S8192x8000, .f32⟩ : BufTy).Contents (Elt F)) :
    (TRef.unary (TRef.of (T := ⟨S8192x1, .f32⟩) main_call1_v9) (TRef.of (T := ⟨S8192x8000, .f32⟩) main_call1_v10) f : HloOp τ sig (Elt F)) = unary main_call1_v9 main_call1_v10 f := rfl
theorem plain_20 (f : (⟨S8192x8000, .f32⟩ : BufTy).Contents (Elt F) → (⟨S8192x8000, .f32⟩ : BufTy).Contents (Elt F) → (⟨S8192x8000, .f32⟩ : BufTy).Contents (Elt F)) :
    (TRef.binary (TRef.of (T := ⟨S8192x8000, .f32⟩) main_call1_v5) (TRef.of (T := ⟨S8192x8000, .f32⟩) main_call1_v10) (TRef.of (T := ⟨S8192x8000, .f32⟩) main_v3) f : HloOp τ sig (Elt F)) = binary main_call1_v5 main_call1_v10 main_v3 f := rfl
theorem plain_24 (f : (⟨S_, .f32⟩ : BufTy).Contents (Elt F) → (⟨S_, .f32⟩ : BufTy).Contents (Elt F)) :
    (TRef.unary (TRef.of (T := ⟨S_, .f32⟩) main_cst_1) (TRef.of (T := ⟨S_, .f32⟩) main_call2_v0) f : HloOp τ sig (Elt F)) = unary main_cst_1 main_call2_v0 f := rfl
theorem plain_25 (f : (⟨S_, .f32⟩ : BufTy).Contents (Elt F) → (⟨S8192x8000, .f32⟩ : BufTy).Contents (Elt F)) :
    (TRef.unary (TRef.of (T := ⟨S_, .f32⟩) main_call2_v0) (TRef.of (T := ⟨S8192x8000, .f32⟩) main_call2_v1) f : HloOp τ sig (Elt F)) = unary main_call2_v0 main_call2_v1 f := rfl
theorem plain_26 (f : (⟨S8192x8000, .i1⟩ : BufTy).Contents (Elt F) → (⟨S8192x8000, .f32⟩ : BufTy).Contents (Elt F) → (⟨S8192x8000, .f32⟩ : BufTy).Contents (Elt F) → (⟨S8192x8000, .f32⟩ : BufTy).Contents (Elt F)) :
    (TRef.ternary (TRef.of (T := ⟨S8192x8000, .i1⟩) main_v1) (TRef.of (T := ⟨S8192x8000, .f32⟩) main_v5) (TRef.of (T := ⟨S8192x8000, .f32⟩) main_call2_v1) (TRef.of (T := ⟨S8192x8000, .f32⟩) main_v6) f : HloOp τ sig (Elt F)) = ternary main_v1 main_v5 main_call2_v1 main_v6 f := rfl

/-- The same 33 operations, every one over plain buffers. -/
abbrev opsPlain : List (HloOp τ sig (Elt F)) :=
  [ nullary main_cst (constant S_ .f32 0xB58637BD#32),
    unary main_cst main_v0 (broadcastInDim S8192x8000 ![] bcast_S_S8192x8000 : (⟨S_, .f32⟩ : BufTy).Contents (Elt F) → (⟨S8192x8000, .f32⟩ : BufTy).Contents (Elt F)),
    binary main_arg1 main_v0 main_v1 (cmpf .oge : (⟨S8192x8000, .f32⟩ : BufTy).Contents (Elt F) → (⟨S8192x8000, .f32⟩ : BufTy).Contents (Elt F) → (⟨S8192x8000, .i1⟩ : BufTy).Contents (Elt F)),
    nullary main_cst_0 (constant S_ .f32 0xFF7FFFFF#32),
    unary main_cst_0 main_call0_v0 ((broadcastInDim S8192x8000 ![] bcast_S_S8192x8000) : (⟨S_, .f32⟩ : BufTy).Contents (Elt F) → (⟨S8192x8000, .f32⟩ : BufTy).Contents (Elt F)),
    ternary main_v1 main_arg0 main_call0_v0 main_v2 (select : (⟨S8192x8000, .i1⟩ : BufTy).Contents (Elt F) → (⟨S8192x8000, .f32⟩ : BufTy).Contents (Elt F) → (⟨S8192x8000, .f32⟩ : BufTy).Contents (Elt F) → (⟨S8192x8000, .f32⟩ : BufTy).Contents (Elt F)),
    nullary main_call1_cst ((constant S_ .f32 0xFF800000#32) : (⟨S_, .f32⟩ : BufTy).Contents (Elt F)),
    binary main_v2 main_call1_cst main_call1_v0 ((fun x v => Host.reduce FloatOps.maximumf x v reducesTo_S8192x8000_S8192_d1 h_S_) : (⟨S8192x8000, .f32⟩ : BufTy).Contents (Elt F) → (⟨S_, .f32⟩ : BufTy).Contents (Elt F) → (⟨S8192, .f32⟩ : BufTy).Contents (Elt F)),
    nullary main_call1_cst_0 ((constant S_ .f32 0xFF800000#32) : (⟨S_, .f32⟩ : BufTy).Contents (Elt F)),
    unary main_call1_cst_0 main_call1_v1 ((broadcastInDim S8192 ![] bcast_S_S8192) : (⟨S_, .f32⟩ : BufTy).Contents (Elt F) → (⟨S8192, .f32⟩ : BufTy).Contents (Elt F)),
    binary main_call1_v1 main_call1_v0 main_call1_v2 (maximumf : (⟨S8192, .f32⟩ : BufTy).Contents (Elt F) → (⟨S8192, .f32⟩ : BufTy).Contents (Elt F) → (⟨S8192, .f32⟩ : BufTy).Contents (Elt F)),
    unary main_call1_v2 main_call1_v3 ((broadcastInDim S8192x1 ![0] bcast_S8192_S8192x1_0) : (⟨S8192, .f32⟩ : BufTy).Contents (Elt F) → (⟨S8192x1, .f32⟩ : BufTy).Contents (Elt F)),
    unary main_call1_v3 main_call1_v4 ((broadcastInDim S8192x8000 ![0, 1] bcast_S8192x1_S8192x8000_0_1) : (⟨S8192x1, .f32⟩ : BufTy).Contents (Elt F) → (⟨S8192x8000, .f32⟩ : BufTy).Contents (Elt F)),
    binary main_v2 main_call1_v4 main_call1_v5 (subf : (⟨S8192x8000, .f32⟩ : BufTy).Contents (Elt F) → (⟨S8192x8000, .f32⟩ : BufTy).Contents (Elt F) → (⟨S8192x8000, .f32⟩ : BufTy).Contents (Elt F)),
    unary main_call1_v5 main_call1_v6 (Host.exp : (⟨S8192x8000, .f32⟩ : BufTy).Contents (Elt F) → (⟨S8192x8000, .f32⟩ : BufTy).Contents (Elt F)),
    nullary main_call1_cst_1 ((constant S_ .f32 0x00000000#32) : (⟨S_, .f32⟩ : BufTy).Contents (Elt F)),
    binary main_call1_v6 main_call1_cst_1 main_call1_v7 ((fun x v => Host.reduceAdd x v reducesTo_S8192x8000_S8192_d1 h_S_) : (⟨S8192x8000, .f32⟩ : BufTy).Contents (Elt F) → (⟨S_, .f32⟩ : BufTy).Contents (Elt F) → (⟨S8192, .f32⟩ : BufTy).Contents (Elt F)),
    unary main_call1_v7 main_call1_v8 ((broadcastInDim S8192x1 ![0] bcast_S8192_S8192x1_0) : (⟨S8192, .f32⟩ : BufTy).Contents (Elt F) → (⟨S8192x1, .f32⟩ : BufTy).Contents (Elt F)),
    unary main_call1_v8 main_call1_v9 (Host.log : (⟨S8192x1, .f32⟩ : BufTy).Contents (Elt F) → (⟨S8192x1, .f32⟩ : BufTy).Contents (Elt F)),
    unary main_call1_v9 main_call1_v10 ((broadcastInDim S8192x8000 ![0, 1] bcast_S8192x1_S8192x8000_0_1) : (⟨S8192x1, .f32⟩ : BufTy).Contents (Elt F) → (⟨S8192x8000, .f32⟩ : BufTy).Contents (Elt F)),
    binary main_call1_v5 main_call1_v10 main_v3 (subf : (⟨S8192x8000, .f32⟩ : BufTy).Contents (Elt F) → (⟨S8192x8000, .f32⟩ : BufTy).Contents (Elt F) → (⟨S8192x8000, .f32⟩ : BufTy).Contents (Elt F)),
    unary main_arg1 main_v4 (Host.negf : (⟨S8192x8000, .f32⟩ : BufTy).Contents (Elt F) → (⟨S8192x8000, .f32⟩ : BufTy).Contents (Elt F)),
    binary main_v4 main_v3 main_v5 (mulf : (⟨S8192x8000, .f32⟩ : BufTy).Contents (Elt F) → (⟨S8192x8000, .f32⟩ : BufTy).Contents (Elt F) → (⟨S8192x8000, .f32⟩ : BufTy).Contents (Elt F)),
    nullary main_cst_1 (constant S_ .f32 0x00000000#32),
    unary main_cst_1 main_call2_v0 (id : (⟨S_, .f32⟩ : BufTy).Contents (Elt F) → (⟨S_, .f32⟩ : BufTy).Contents (Elt F)),
    unary main_call2_v0 main_call2_v1 ((broadcastInDim S8192x8000 ![] bcast_S_S8192x8000) : (⟨S_, .f32⟩ : BufTy).Contents (Elt F) → (⟨S8192x8000, .f32⟩ : BufTy).Contents (Elt F)),
    ternary main_v1 main_v5 main_call2_v1 main_v6 (select : (⟨S8192x8000, .i1⟩ : BufTy).Contents (Elt F) → (⟨S8192x8000, .f32⟩ : BufTy).Contents (Elt F) → (⟨S8192x8000, .f32⟩ : BufTy).Contents (Elt F) → (⟨S8192x8000, .f32⟩ : BufTy).Contents (Elt F)),
    nullary main_cst_2 (constant S_ .f32 0x00000000#32),
    binary main_v6 main_cst_2 main_v7 ((fun x v => Host.reduceAdd x v reducesTo_S8192x8000_S8192_d1 h_S_) : (⟨S8192x8000, .f32⟩ : BufTy).Contents (Elt F) → (⟨S_, .f32⟩ : BufTy).Contents (Elt F) → (⟨S8192, .f32⟩ : BufTy).Contents (Elt F)),
    nullary main_cst_3 (constant S_ .f32 0x00000000#32),
    binary main_v7 main_cst_3 main_v8 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_4 (constant S_ .f32 0x46000000#32),
    binary main_v8 main_cst_4 main_v9 (Host.divf : (⟨S_, .f32⟩ : BufTy).Contents (Elt F) → (⟨S_, .f32⟩ : BufTy).Contents (Elt F) → (⟨S_, .f32⟩ : BufTy).Contents (Elt F)) ]

theorem ops_eq_plain : (ops : List (HloOp τ sig (Elt F))) = opsPlain :=
  (congrArg₂ List.cons (rfl) (congrArg₂ List.cons (rfl) (congrArg₂ List.cons (rfl) (congrArg₂ List.cons (rfl) (congrArg₂ List.cons (plain_4 _) (congrArg₂ List.cons (plain_5 _) (congrArg₂ List.cons (plain_6 _) (congrArg₂ List.cons (plain_7 _) (congrArg₂ List.cons (plain_8 _) (congrArg₂ List.cons (plain_9 _) (congrArg₂ List.cons (plain_10 _) (congrArg₂ List.cons (plain_11 _) (congrArg₂ List.cons (plain_12 _) (congrArg₂ List.cons (plain_13 _) (congrArg₂ List.cons (plain_14 _) (congrArg₂ List.cons (plain_15 _) (congrArg₂ List.cons (plain_16 _) (congrArg₂ List.cons (plain_17 _) (congrArg₂ List.cons (plain_18 _) (congrArg₂ List.cons (plain_19 _) (congrArg₂ List.cons (plain_20 _) (congrArg₂ List.cons (rfl) (congrArg₂ List.cons (rfl) (congrArg₂ List.cons (rfl) (congrArg₂ List.cons (plain_24 _) (congrArg₂ List.cons (plain_25 _) (congrArg₂ List.cons (plain_26 _) (congrArg₂ List.cons (rfl) (congrArg₂ List.cons (rfl) (congrArg₂ List.cons (rfl) (congrArg₂ List.cons (rfl) (congrArg₂ List.cons (rfl) (congrArg₂ List.cons (rfl) rfl)))))))))))))))))))))))))))))))))

/-! ## The four stretches -/

/-- The mask and the masked logits: six operations. -/
abbrev opsMask : List (HloOp τ sig (Elt F)) :=
  [ nullary main_cst (constant S_ .f32 0xB58637BD#32),
    unary main_cst main_v0 (broadcastInDim S8192x8000 ![] bcast_S_S8192x8000 : (⟨S_, .f32⟩ : BufTy).Contents (Elt F) → (⟨S8192x8000, .f32⟩ : BufTy).Contents (Elt F)),
    binary main_arg1 main_v0 main_v1 (cmpf .oge : (⟨S8192x8000, .f32⟩ : BufTy).Contents (Elt F) → (⟨S8192x8000, .f32⟩ : BufTy).Contents (Elt F) → (⟨S8192x8000, .i1⟩ : BufTy).Contents (Elt F)),
    nullary main_cst_0 (constant S_ .f32 0xFF7FFFFF#32),
    unary main_cst_0 main_call0_v0 ((broadcastInDim S8192x8000 ![] bcast_S_S8192x8000) : (⟨S_, .f32⟩ : BufTy).Contents (Elt F) → (⟨S8192x8000, .f32⟩ : BufTy).Contents (Elt F)),
    ternary main_v1 main_arg0 main_call0_v0 main_v2 (select : (⟨S8192x8000, .i1⟩ : BufTy).Contents (Elt F) → (⟨S8192x8000, .f32⟩ : BufTy).Contents (Elt F) → (⟨S8192x8000, .f32⟩ : BufTy).Contents (Elt F) → (⟨S8192x8000, .f32⟩ : BufTy).Contents (Elt F)) ]

/-- The row maxima and the shift by them: eight operations. -/
abbrev opsShift : List (HloOp τ sig (Elt F)) :=
  [ nullary main_call1_cst ((constant S_ .f32 0xFF800000#32) : (⟨S_, .f32⟩ : BufTy).Contents (Elt F)),
    binary main_v2 main_call1_cst main_call1_v0 ((fun x v => Host.reduce FloatOps.maximumf x v reducesTo_S8192x8000_S8192_d1 h_S_) : (⟨S8192x8000, .f32⟩ : BufTy).Contents (Elt F) → (⟨S_, .f32⟩ : BufTy).Contents (Elt F) → (⟨S8192, .f32⟩ : BufTy).Contents (Elt F)),
    nullary main_call1_cst_0 ((constant S_ .f32 0xFF800000#32) : (⟨S_, .f32⟩ : BufTy).Contents (Elt F)),
    unary main_call1_cst_0 main_call1_v1 ((broadcastInDim S8192 ![] bcast_S_S8192) : (⟨S_, .f32⟩ : BufTy).Contents (Elt F) → (⟨S8192, .f32⟩ : BufTy).Contents (Elt F)),
    binary main_call1_v1 main_call1_v0 main_call1_v2 (maximumf : (⟨S8192, .f32⟩ : BufTy).Contents (Elt F) → (⟨S8192, .f32⟩ : BufTy).Contents (Elt F) → (⟨S8192, .f32⟩ : BufTy).Contents (Elt F)),
    unary main_call1_v2 main_call1_v3 ((broadcastInDim S8192x1 ![0] bcast_S8192_S8192x1_0) : (⟨S8192, .f32⟩ : BufTy).Contents (Elt F) → (⟨S8192x1, .f32⟩ : BufTy).Contents (Elt F)),
    unary main_call1_v3 main_call1_v4 ((broadcastInDim S8192x8000 ![0, 1] bcast_S8192x1_S8192x8000_0_1) : (⟨S8192x1, .f32⟩ : BufTy).Contents (Elt F) → (⟨S8192x8000, .f32⟩ : BufTy).Contents (Elt F)),
    binary main_v2 main_call1_v4 main_call1_v5 (subf : (⟨S8192x8000, .f32⟩ : BufTy).Contents (Elt F) → (⟨S8192x8000, .f32⟩ : BufTy).Contents (Elt F) → (⟨S8192x8000, .f32⟩ : BufTy).Contents (Elt F)) ]

/-- The log-sum-exp and its subtraction: seven operations. -/
abbrev opsLogSumExp : List (HloOp τ sig (Elt F)) :=
  [ unary main_call1_v5 main_call1_v6 (Host.exp : (⟨S8192x8000, .f32⟩ : BufTy).Contents (Elt F) → (⟨S8192x8000, .f32⟩ : BufTy).Contents (Elt F)),
    nullary main_call1_cst_1 ((constant S_ .f32 0x00000000#32) : (⟨S_, .f32⟩ : BufTy).Contents (Elt F)),
    binary main_call1_v6 main_call1_cst_1 main_call1_v7 ((fun x v => Host.reduceAdd x v reducesTo_S8192x8000_S8192_d1 h_S_) : (⟨S8192x8000, .f32⟩ : BufTy).Contents (Elt F) → (⟨S_, .f32⟩ : BufTy).Contents (Elt F) → (⟨S8192, .f32⟩ : BufTy).Contents (Elt F)),
    unary main_call1_v7 main_call1_v8 ((broadcastInDim S8192x1 ![0] bcast_S8192_S8192x1_0) : (⟨S8192, .f32⟩ : BufTy).Contents (Elt F) → (⟨S8192x1, .f32⟩ : BufTy).Contents (Elt F)),
    unary main_call1_v8 main_call1_v9 (Host.log : (⟨S8192x1, .f32⟩ : BufTy).Contents (Elt F) → (⟨S8192x1, .f32⟩ : BufTy).Contents (Elt F)),
    unary main_call1_v9 main_call1_v10 ((broadcastInDim S8192x8000 ![0, 1] bcast_S8192x1_S8192x8000_0_1) : (⟨S8192x1, .f32⟩ : BufTy).Contents (Elt F) → (⟨S8192x8000, .f32⟩ : BufTy).Contents (Elt F)),
    binary main_call1_v5 main_call1_v10 main_v3 (subf : (⟨S8192x8000, .f32⟩ : BufTy).Contents (Elt F) → (⟨S8192x8000, .f32⟩ : BufTy).Contents (Elt F) → (⟨S8192x8000, .f32⟩ : BufTy).Contents (Elt F)) ]

/-- The loss and its mean: twelve operations. -/
abbrev opsLoss : List (HloOp τ sig (Elt F)) :=
  [ unary main_arg1 main_v4 (Host.negf : (⟨S8192x8000, .f32⟩ : BufTy).Contents (Elt F) → (⟨S8192x8000, .f32⟩ : BufTy).Contents (Elt F)),
    binary main_v4 main_v3 main_v5 (mulf : (⟨S8192x8000, .f32⟩ : BufTy).Contents (Elt F) → (⟨S8192x8000, .f32⟩ : BufTy).Contents (Elt F) → (⟨S8192x8000, .f32⟩ : BufTy).Contents (Elt F)),
    nullary main_cst_1 (constant S_ .f32 0x00000000#32),
    unary main_cst_1 main_call2_v0 (id : (⟨S_, .f32⟩ : BufTy).Contents (Elt F) → (⟨S_, .f32⟩ : BufTy).Contents (Elt F)),
    unary main_call2_v0 main_call2_v1 ((broadcastInDim S8192x8000 ![] bcast_S_S8192x8000) : (⟨S_, .f32⟩ : BufTy).Contents (Elt F) → (⟨S8192x8000, .f32⟩ : BufTy).Contents (Elt F)),
    ternary main_v1 main_v5 main_call2_v1 main_v6 (select : (⟨S8192x8000, .i1⟩ : BufTy).Contents (Elt F) → (⟨S8192x8000, .f32⟩ : BufTy).Contents (Elt F) → (⟨S8192x8000, .f32⟩ : BufTy).Contents (Elt F) → (⟨S8192x8000, .f32⟩ : BufTy).Contents (Elt F)),
    nullary main_cst_2 (constant S_ .f32 0x00000000#32),
    binary main_v6 main_cst_2 main_v7 ((fun x v => Host.reduceAdd x v reducesTo_S8192x8000_S8192_d1 h_S_) : (⟨S8192x8000, .f32⟩ : BufTy).Contents (Elt F) → (⟨S_, .f32⟩ : BufTy).Contents (Elt F) → (⟨S8192, .f32⟩ : BufTy).Contents (Elt F)),
    nullary main_cst_3 (constant S_ .f32 0x00000000#32),
    binary main_v7 main_cst_3 main_v8 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_4 (constant S_ .f32 0x46000000#32),
    binary main_v8 main_cst_4 main_v9 (Host.divf : (⟨S_, .f32⟩ : BufTy).Contents (Elt F) → (⟨S_, .f32⟩ : BufTy).Contents (Elt F) → (⟨S_, .f32⟩ : BufTy).Contents (Elt F)) ]

theorem plain_split : (opsPlain : List (HloOp τ sig (Elt F))) = opsMask ++ (opsShift ++ (opsLogSumExp ++ opsLoss)) := rfl

/-- Running two stretches in turn is running the first and then the second from what it left. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-! ### What the first stretch leaves -/

theorem mask_v1 (V : Valuation τ sig (Elt F)) :
    after (opsMask (F := F)) V (Proc.devRef .tc main_v1) = keepMask (V (Proc.devRef .tc main_arg1)) := by
  after_results_simp
  rfl

theorem mask_v2 (V : Valuation τ sig (Elt F)) :
    after (opsMask (F := F)) V (Proc.devRef .tc main_v2)
      = maskedLogits (V (Proc.devRef .tc main_arg0)) (V (Proc.devRef .tc main_arg1)) := by
  after_results_simp
  rfl

theorem mask_arg0 (V : Valuation τ sig (Elt F)) :
    after (opsMask (F := F)) V (Proc.devRef .tc main_arg0) = V (Proc.devRef .tc main_arg0) := by
  after_results_simp

theorem mask_arg1 (V : Valuation τ sig (Elt F)) :
    after (opsMask (F := F)) V (Proc.devRef .tc main_arg1) = V (Proc.devRef .tc main_arg1) := by
  after_results_simp

/-! ### What the second stretch leaves -/

attribute [local irreducible] Host.reduce in
theorem shift_v5 (V : Valuation τ sig (Elt F)) :
    after (opsShift (F := F)) V (Proc.devRef .tc main_call1_v5) = shifted (V (Proc.devRef .tc main_v2)) := by
  after_results_simp
  rfl

theorem shift_v1 (V : Valuation τ sig (Elt F)) :
    after (opsShift (F := F)) V (Proc.devRef .tc main_v1) = V (Proc.devRef .tc main_v1) := by
  after_results_simp

theorem shift_arg0 (V : Valuation τ sig (Elt F)) :
    after (opsShift (F := F)) V (Proc.devRef .tc main_arg0) = V (Proc.devRef .tc main_arg0) := by
  after_results_simp

theorem shift_arg1 (V : Valuation τ sig (Elt F)) :
    after (opsShift (F := F)) V (Proc.devRef .tc main_arg1) = V (Proc.devRef .tc main_arg1) := by
  after_results_simp

/-! ### What the third stretch leaves -/

attribute [local irreducible] Host.reduceAdd in
theorem lse_v3 (V : Valuation τ sig (Elt F)) :
    after (opsLogSumExp (F := F)) V (Proc.devRef .tc main_v3) = lessLogSumExp (V (Proc.devRef .tc main_call1_v5)) := by
  after_results_simp
  rfl

theorem lse_v1 (V : Valuation τ sig (Elt F)) :
    after (opsLogSumExp (F := F)) V (Proc.devRef .tc main_v1) = V (Proc.devRef .tc main_v1) := by
  after_results_simp

theorem lse_arg0 (V : Valuation τ sig (Elt F)) :
    after (opsLogSumExp (F := F)) V (Proc.devRef .tc main_arg0) = V (Proc.devRef .tc main_arg0) := by
  after_results_simp

theorem lse_arg1 (V : Valuation τ sig (Elt F)) :
    after (opsLogSumExp (F := F)) V (Proc.devRef .tc main_arg1) = V (Proc.devRef .tc main_arg1) := by
  after_results_simp

/-! ### What the fourth stretch leaves -/

attribute [local irreducible] Host.reduce Host.reduceAdd in
theorem loss_v9 (V : Valuation τ sig (Elt F)) :
    after (opsLoss (F := F)) V (Proc.devRef .tc main_v9)
      = meanOfRows (rowLossesOf (V (Proc.devRef .tc main_v1)) (V (Proc.devRef .tc main_arg1)) (V (Proc.devRef .tc main_v3))) := by
  after_results_simp
  rfl

theorem loss_arg0 (V : Valuation τ sig (Elt F)) :
    after (opsLoss (F := F)) V (Proc.devRef .tc main_arg0) = V (Proc.devRef .tc main_arg0) := by
  after_results_simp

theorem loss_arg1 (V : Valuation τ sig (Elt F)) :
    after (opsLoss (F := F)) V (Proc.devRef .tc main_arg1) = V (Proc.devRef .tc main_arg1) := by
  after_results_simp

/-! ## What the whole line leaves -/

/-- The result buffer holds `meanLoss` of the two argument buffers: the four stretches in turn. -/
theorem result_eq (V : Valuation τ sig (Elt F)) :
    after (ops (F := F)) V (Proc.devRef .tc main_v9)
      = meanLoss (V (Proc.devRef .tc main_arg0)) (V (Proc.devRef .tc main_arg1)) := by
  rw [ops_eq_plain, plain_split, after_append, after_append, after_append, loss_v9, lse_v1, lse_arg1, lse_v3, shift_v1, shift_arg1,
    shift_v5, mask_v1, mask_v2, mask_arg1]
  rfl

theorem arg0_eq (V : Valuation τ sig (Elt F)) :
    after (ops (F := F)) V (Proc.devRef .tc main_arg0) = V (Proc.devRef .tc main_arg0) := by
  rw [ops_eq_plain, plain_split, after_append, after_append, after_append, loss_arg0, lse_arg0, shift_arg0, mask_arg0]

theorem arg1_eq (V : Valuation τ sig (Elt F)) :
    after (ops (F := F)) V (Proc.devRef .tc main_arg1) = V (Proc.devRef .tc main_arg1) := by
  rw [ops_eq_plain, plain_split, after_append, after_append, after_append, loss_arg1, lse_arg1, shift_arg1, mask_arg1]

/-- From any memory with zero counters, every weakly fair execution of the reference terminates with the result at
    `meanLoss` of the argument arrays and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9)
          = meanLoss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v9).trans (result_eq _), (h c main_arg0).trans (arg0_eq _),
      (h c main_arg1).trans (arg1_eq _)⟩)
    (run_seq scopedRefs_eq scopedSems_eq defs main (fun _ => ops) main_eq (fun _ => ops_sub) m ρ)

end Cert.ReferenceIdeal.HostRun

end
-- ==== Proof.RowLoss.lean ====
/-
  The masked cross-entropy of one row, in two arrangements, and the law that joins them. No program is imported.

  A row has `n` classes with logits `p c` and targets `t c`, and a keep-bit `k c` per class. The masked logit
  `l c` is `p c` for a kept class and a fixed finite number `nb` for a dropped one. Write `M` for the greatest
  masked logit and `L = log (∑ c, exp (l c - M))`, so that the logarithm of the softmax at `c` is `(l c - M) - L`.

  * One arrangement sums, over the kept classes, `-(t c) · ((l c - M) - L)`.
  * The other takes `S1 = ∑ kept t c` and `S2 = ∑ kept t c · p c` and returns `(M + L) · S1 - S2`.

  On a kept class `l c = p c`, so the two differ by distributing `t c` over `p c - (M + L)` and by moving the
  factor `M + L` out of a sum. On the extended reals those steps need every quantity to be a real number: that is
  the case when the logits, the targets and `nb` are real and the row is not empty — the greatest of finitely many
  reals is real, the sum of exponentials is then a positive real (one of its terms is `exp 0`), and its logarithm
  is real.
-/
import Idealize.ShloMosaic.PureOps.Ideal
import Mathlib.Data.Finset.Fold
import Mathlib.Algebra.BigOperators.Fin
import Mathlib.Tactic.Ring

noncomputable section

namespace Cert.RowLoss

open Idealize.ShloMosaic
open scoped BigOperators

variable {n : ℕ}

/-! ### Real sums inside the extended reals -/

/-- The inclusion of the reals in the extended reals commutes with a finite sum. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-! ### Two float patterns -/

/-- The pattern of minus infinity denotes the least extended real. -/
theorem ofBits_neg_inf : Ideal.ofBits .f32 0xFF800000#32 = ⊥ := by
  simp [Ideal.ofBits, Ideal.ieee]

/-- The least finite float is the real number `-(2 ^ 24 - 1) · 2 ^ 104`. -/
theorem ofBits_least_finite : Ideal.ofBits .f32 0xFF7FFFFF#32 = ((-(16777215 * 2 ^ 104) : ℝ) : EReal) := by
  simp [Ideal.ofBits, Ideal.ieee]

/-! ### The row's maximum and log-sum-exp -/

/-- The greatest entry of a row: the fold of `max` over its positions, from the least extended real. -/
def rowMax (l : Fin n → EReal) : EReal :=
  (Finset.univ : Finset (Fin n)).fold max ⊥ l

/-- The logarithm of the sum of the exponentials of the entries less the greatest entry. -/
def logZ (l : Fin n → EReal) : EReal :=
  Ideal.log (∑ c, Ideal.exp (l c - rowMax l))

/-- The greatest of finitely many reals, at least one of them, is a real. -/
theorem rowMax_real (hn : 0 < n) (lr : Fin n → ℝ) :
    ∃ M : ℝ, rowMax (fun c => ((lr c : ℝ) : EReal)) = (M : EReal) := by
  have hb : ⊥ < rowMax (fun c => ((lr c : ℝ) : EReal)) :=
    (Finset.lt_fold_max _).mpr (Or.inr ⟨⟨0, hn⟩, Finset.mem_univ _, EReal.bot_lt_coe _⟩)
  have ht : rowMax (fun c => ((lr c : ℝ) : EReal)) < ⊤ :=
    (Finset.fold_max_lt _).mpr ⟨bot_lt_top, fun x _ => EReal.coe_lt_top _⟩
  exact ⟨_, (EReal.coe_toReal ht.ne hb.ne').symm⟩

/-- For a nonempty row of reals the sum of exponentials is a positive real, so its logarithm is a real. -/
theorem logZ_real (hn : 0 < n) (lr : Fin n → ℝ) :
    ∃ L : ℝ, logZ (fun c => ((lr c : ℝ) : EReal)) = (L : EReal) := by
  obtain ⟨M, hM⟩ := rowMax_real hn lr
  unfold logZ
  rw [hM]
  have he : ∀ c, Ideal.exp (((lr c : ℝ) : EReal) - (M : EReal)) = ((Real.exp (lr c - M) : ℝ) : EReal) := fun c => by
    rw [← EReal.coe_sub, Ideal.exp_coe]
  simp only [he]
  rw [← coe_sum]
  have hZ : 0 < ∑ c, Real.exp (lr c - M) :=
    Finset.sum_pos (fun c _ => Real.exp_pos _) ⟨⟨0, hn⟩, Finset.mem_univ _⟩
  rw [Ideal.log_coe, if_neg (not_le.mpr hZ)]
  exact ⟨_, rfl⟩

/-! ### The two arrangements -/

/-- The loss as the sum over the kept classes of minus the target times the log-softmax. -/
def sumForm (k : Fin n → BitVec 1) (l t : Fin n → EReal) : EReal :=
  ∑ c, Scalar.select (k c) (-(t c) * ((l c - rowMax l) - logZ l)) 0

/-- The loss from four row reductions: `(M + L) · S1 - S2`. -/
def reducedForm (k : Fin n → BitVec 1) (l p t : Fin n → EReal) : EReal :=
  (rowMax l + logZ l) * (∑ c, Scalar.select (k c) (t c) 0) - ∑ c, Scalar.select (k c) (t c * p c) 0

/-- THE LAW: for real logits, real targets, a real fill value and a nonempty row, the two arrangements agree. -/
theorem reducedForm_eq_sumForm (hn : 0 < n) (k : Fin n → BitVec 1) (nb : ℝ) (p t : Fin n → ℝ) :
    reducedForm k (fun c => Scalar.select (k c) ((p c : ℝ) : EReal) (nb : EReal)) (fun c => ((p c : ℝ) : EReal))
        (fun c => ((t c : ℝ) : EReal))
      = sumForm k (fun c => Scalar.select (k c) ((p c : ℝ) : EReal) (nb : EReal)) (fun c => ((t c : ℝ) : EReal)) := by
  classical
  have hl : (fun c => Scalar.select (k c) ((p c : ℝ) : EReal) (nb : EReal))
      = fun c => (((if k c = 1 then p c else nb : ℝ)) : EReal) := by
    funext c
    simp only [Scalar.select]
    split_ifs <;> rfl
  rw [hl]
  obtain ⟨M, hM⟩ := rowMax_real hn (fun c => if k c = 1 then p c else nb)
  obtain ⟨L, hL⟩ := logZ_real hn (fun c => if k c = 1 then p c else nb)
  unfold reducedForm sumForm
  rw [hM, hL]
  have h1 : ∀ c, Scalar.select (k c) ((t c : ℝ) : EReal) 0 = (((if k c = 1 then t c else 0 : ℝ)) : EReal) := by
    intro c
    simp only [Scalar.select]
    split_ifs <;> simp
  have h2 : ∀ c, Scalar.select (k c) (((t c : ℝ) : EReal) * ((p c : ℝ) : EReal)) 0
      = (((if k c = 1 then t c * p c else 0 : ℝ)) : EReal) := by
    intro c
    simp only [Scalar.select]
    split_ifs <;> simp
  have h3 : ∀ c, Scalar.select (k c)
        (-((t c : ℝ) : EReal) * (((((if k c = 1 then p c else nb : ℝ)) : EReal) - (M : EReal)) - (L : EReal))) 0
      = (((if k c = 1 then -(t c) * ((p c - M) - L) else 0 : ℝ)) : EReal) := by
    intro c
    simp only [Scalar.select]
    split_ifs <;> simp
  simp only [h1, h2, h3]
  rw [← coe_sum, ← coe_sum, ← coe_sum, ← EReal.coe_add, ← EReal.coe_mul, ← EReal.coe_sub]
  congr 1
  rw [Finset.mul_sum, ← Finset.sum_sub_distrib]
  refine Finset.sum_congr rfl fun c _ => ?_
  split_ifs <;> ring

end Cert.RowLoss

end
-- ==== Proof.LibKeepdims.lean ====
/-
  Layout facts for a sum taken along the last axis with the axis kept: a vector of `a` entries recast as a column
  `[a, 1]`, a column spread across `b` lanes, and a one-entry vector spread down a column. Each says which entry of the
  operand an entry of the result reads. General over the extents.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- A vector `[a]` recast as a column `[a, 1]` reads, at `(i, 0)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread across `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` recast as a row and spread down `a` rows reads, at `(p, c)`, entry `c`. -/
theorem broadcastTo_row_of_vec_apply {a b : ℕ} (x : (⟨1, ![b]⟩ : Shape).Idx → α) (hc : (⟨1, ![b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ x hc) h (ix2 p c) = x (ix1 c) :=
  (broadcastTo_1b_ab_apply _ h p c).trans (shapeCast_a_1a_apply x hc 0 c)

end Idealize.ShloMosaic.Keepdims
-- ==== Proof.BodyRows.lean ====
/-
  The kernel body's stored value, read at a row.

  The body holds a block of 128 rows of logits `x0` and of targets `x1`, 8000 classes each, and stores one value
  per row. For row `q` it forms the keep-bits `x1 q c ≥ -1e-6`, the masked logits (the logit where kept, the least
  finite float where dropped), their maximum `M` over the row, `L = log ∑ exp (masked - M)`, the kept targets' sum
  `S1` and the kept products' sum `S2`, and stores `(M + L) · S1 - S2`: the four-reduction arrangement of the
  row's loss (`RowLoss.reducedForm`). Every step but the reductions and the two re-layouts of a row vector (as a
  column, and the column spread over the lanes) acts entry by entry. The stages are named, the stored value is their
  composition, and each stage is read at row `q` on its own.
-/
import proofs.«132058_j50354196578629_2_alg».proof.Proof.Gen.KernelIdeal.Skeleton
import proofs.«132058_j50354196578629_2_alg».proof.Proof.RowLoss
import proofs.«132058_j50354196578629_2_alg».proof.Proof.LibKeepdims
import Idealize.ShloMosaic.Lib.ValueIdx
import Idealize.ShloMosaic.PureOps.Ideal.Laws

noncomputable section

namespace Cert.KernelIdeal.BodyRows

open Idealize.ShloMosaic Idealize.ShloMosaic.ValueIdx Idealize.ShloMosaic.Keepdims Cert.KernelIdeal Cert.KernelIdeal.Gen
open scoped BigOperators

/-! ## The two lane reductions at a row -/

/-- Row `q` of the reduced vector with class `k` put back on the dropped axis is entry `(q, k)` of the block. -/
theorem lift_row (h : S128x8000.Reduces [1] S128) (q : Fin 128) (k : Fin 8000) : h.lift (ix1 q) k = ix2 q k :=
  funext fun a => Fin.ext (by match a with | ⟨0, _⟩ => rfl | ⟨1, _⟩ => rfl)

/-- A sum along the lanes of a block, at row `q`: the sum of the row's entries. -/
theorem rowSum_apply (v : FVec Ideal S128x8000 .f32) (h : S128x8000.Reduces [1] S128) (hφ : FKind.Formats .f32)
    (hacc : (0x00000000#32 : BitVec 32) = FKind.add.neutral .f32 hφ) (q : Fin 128) :
    multiReduction .add [1] S128 v 0x00000000#32 h hφ hacc (ix1 q) = ∑ k : Fin 8000, v (ix2 q k) :=
  (Ideal.multiReduction_add_single v 0x00000000#32 h hφ hacc (ix1 q)).trans
    (Finset.sum_congr rfl fun k _ => congrArg v (lift_row h q k))

/-- A maximum along the lanes of a block from minus infinity, at row `q`: the row's greatest entry. -/
theorem rowMax_apply (v : FVec Ideal S128x8000 .f32) (h : S128x8000.Reduces [1] S128) (hφ : FKind.Formats .f32)
    (hacc : (0xFF800000#32 : BitVec 32) = FKind.maximumf.neutral .f32 hφ) (q : Fin 128) :
    multiReduction .maximumf [1] S128 v 0xFF800000#32 h hφ hacc (ix1 q)
      = RowLoss.rowMax (fun k : Fin 8000 => v (ix2 q k)) := by
  refine (Ideal.multiReduction_maximumf_single v 0xFF800000#32 h hφ hacc (ix1 q)).trans ?_
  show (Finset.univ : Finset (Fin 8000)).fold max (Ideal.ofBits .f32 0xFF800000#32) (v ∘ h.lift (ix1 q)) = _
  rw [RowLoss.ofBits_neg_inf]
  unfold RowLoss.rowMax
  exact congrArg (fun f => (Finset.univ : Finset (Fin 8000)).fold max ⊥ f) (funext fun k => congrArg v (lift_row h q k))

/-! ## The body's stages -/

/-- Which classes count. -/
def keepBits (x1 : FVec Ideal S128x8000 .f32) : IVec S128x8000 1 :=
  cmpf .oge x1 (broadcast S128x8000 (Scalar.ofBits (F := Ideal) .f32 0xB58637BD#32))

/-- The masked logits. -/
def masked (x0 x1 : FVec Ideal S128x8000 .f32) : FVec Ideal S128x8000 .f32 :=
  select (keepBits x1) x0 (broadcast S128x8000 (Scalar.ofBits (F := Ideal) .f32 0xFF7FFFFF#32))

/-- Each row's greatest entry, as a column. -/
def maxCol (l : FVec Ideal S128x8000 .f32) : FVec Ideal S128x1 .f32 :=
  shapeCast S128x1 (multiReduction .maximumf [1] S128 l 0xFF800000#32 reduces_S128x8000_S128 (.inl rfl) rfl)
    shapeCasts_S128_S128x1

/-- Each row's logarithm of the sum of exponentials of its entries less its greatest entry, as a column. -/
def lseCol (l : FVec Ideal S128x8000 .f32) : FVec Ideal S128x1 .f32 :=
  log (shapeCast S128x1
    (multiReduction .add [1] S128 (exp (subf l (broadcastTo S128x8000 (maxCol l) broadcasts_S128x1_S128x8000)))
      0x00000000#32 reduces_S128x8000_S128 (.inl rfl) rfl) shapeCasts_S128_S128x1)

/-- Each row's sum of a block's entries, as a column. -/
def sumCol (v : FVec Ideal S128x8000 .f32) : FVec Ideal S128x1 .f32 :=
  shapeCast S128x1 (multiReduction .add [1] S128 v 0x00000000#32 reduces_S128x8000_S128 (.inl rfl) rfl)
    shapeCasts_S128_S128x1

/-- The kept targets, zero elsewhere. -/
def keptTargets (x1 : FVec Ideal S128x8000 .f32) : FVec Ideal S128x8000 .f32 :=
  select (keepBits x1) x1 (broadcast S128x8000 (Scalar.ofBits (F := Ideal) .f32 0x00000000#32))

/-- The kept products target times logit, zero elsewhere. -/
def keptProducts (x0 x1 : FVec Ideal S128x8000 .f32) : FVec Ideal S128x8000 .f32 :=
  select (keepBits x1) (mulf x1 x0) (broadcast S128x8000 (Scalar.ofBits (F := Ideal) .f32 0x00000000#32))

/-- The stored value is the composition of the stages. -/
theorem payload_eq (x0 x1 : Vec Ideal S128x8000 .f32) :
    k0_pay1 (F := Ideal) x0 x1
      = subf (mulf (addf (maxCol (masked x0 x1)) (lseCol (masked x0 x1))) (sumCol (keptTargets x1)))
          (sumCol (keptProducts x0 x1)) := rfl

/-! ## The stages at a row -/

theorem keepBits_apply (x1 : FVec Ideal S128x8000 .f32) (q : Fin 128) (c : Fin 8000) :
    keepBits x1 (ix2 q c) = Ideal.cmp .oge (x1 (ix2 q c)) (Ideal.ofBits .f32 0xB58637BD#32) := rfl

theorem masked_apply (x0 x1 : FVec Ideal S128x8000 .f32) (q : Fin 128) (c : Fin 8000) :
    masked x0 x1 (ix2 q c)
      = Scalar.select (Ideal.cmp .oge (x1 (ix2 q c)) (Ideal.ofBits .f32 0xB58637BD#32)) (x0 (ix2 q c))
          (Ideal.ofBits .f32 0xFF7FFFFF#32) := rfl

theorem keptTargets_apply (x1 : FVec Ideal S128x8000 .f32) (q : Fin 128) (c : Fin 8000) :
    keptTargets x1 (ix2 q c)
      = Scalar.select (Ideal.cmp .oge (x1 (ix2 q c)) (Ideal.ofBits .f32 0xB58637BD#32)) (x1 (ix2 q c)) 0 := by
  show Scalar.select _ _ (Ideal.ofBits .f32 0x00000000#32) = _
  rw [Ideal.ofBits_zero_f32]
  rfl

theorem keptProducts_apply (x0 x1 : FVec Ideal S128x8000 .f32) (q : Fin 128) (c : Fin 8000) :
    keptProducts x0 x1 (ix2 q c)
      = Scalar.select (Ideal.cmp .oge (x1 (ix2 q c)) (Ideal.ofBits .f32 0xB58637BD#32))
          (x1 (ix2 q c) * x0 (ix2 q c)) 0 := by
  show Scalar.select _ _ (Ideal.ofBits .f32 0x00000000#32) = _
  rw [Ideal.ofBits_zero_f32]
  rfl

theorem maxCol_apply (l : FVec Ideal S128x8000 .f32) (q : Fin 128) (u : Fin 1) :
    maxCol l (ix2 q u) = RowLoss.rowMax (fun c : Fin 8000 => l (ix2 q c)) :=
  (shapeCast_a_a1_apply _ shapeCasts_S128_S128x1 q u).trans (rowMax_apply l _ _ _ q)

theorem sumCol_apply (v : FVec Ideal S128x8000 .f32) (q : Fin 128) (u : Fin 1) :
    sumCol v (ix2 q u) = ∑ c : Fin 8000, v (ix2 q c) :=
  (shapeCast_a_a1_apply _ shapeCasts_S128_S128x1 q u).trans (rowSum_apply v _ _ _ q)

theorem lseCol_apply (l : FVec Ideal S128x8000 .f32) (q : Fin 128) (u : Fin 1) :
    lseCol l (ix2 q u) = RowLoss.logZ (fun c : Fin 8000 => l (ix2 q c)) := by
  unfold lseCol RowLoss.logZ
  show Ideal.log (shapeCast S128x1 _ shapeCasts_S128_S128x1 (ix2 q u)) = _
  refine congrArg Ideal.log ?_
  refine ((shapeCast_a_a1_apply _ shapeCasts_S128_S128x1 q u).trans (rowSum_apply _ _ _ _ q)).trans ?_
  refine Finset.sum_congr rfl fun c _ => ?_
  show Ideal.exp (l (ix2 q c) - broadcastTo S128x8000 (maxCol l) broadcasts_S128x1_S128x8000 (ix2 q c)) = _
  rw [broadcastTo_a1_ab_apply, maxCol_apply]

/-- The value the body stores for row `q`: the four-reduction form of the row's loss. -/
theorem payload_apply (x0 x1 : Vec Ideal S128x8000 .f32) (q : Fin 128) (u : Fin 1) :
    k0_pay1 (F := Ideal) x0 x1 (ix2 q u)
      = RowLoss.reducedForm (fun c : Fin 8000 => Ideal.cmp .oge (x1 (ix2 q c)) (Ideal.ofBits .f32 0xB58637BD#32))
          (fun c : Fin 8000 => Scalar.select (Ideal.cmp .oge (x1 (ix2 q c)) (Ideal.ofBits .f32 0xB58637BD#32))
            (x0 (ix2 q c)) (Ideal.ofBits .f32 0xFF7FFFFF#32))
          (fun c : Fin 8000 => x0 (ix2 q c)) (fun c : Fin 8000 => x1 (ix2 q c)) := by
  rw [payload_eq, subf_apply, mulf_apply, addf_apply, maxCol_apply, lseCol_apply, sumCol_apply, sumCol_apply]
  unfold RowLoss.reducedForm
  simp only [masked_apply, keptTargets_apply, keptProducts_apply]

end Cert.KernelIdeal.BodyRows

end
-- ==== Proof.ArrayValue.lean ====
/-
  From the kernel's blocks to its result.

  The output array has one entry per row; grid point `t` of 64 writes rows `128 t … 128 t + 127`, and what it writes
  for row `q` of its block is the four-reduction form of the loss of row `128 t + q` of the argument arrays (the
  body's stored value at a row; the input blocks at point `t` are rows `128 t …` of the arguments). The 64 blocks
  tile the 8192 rows, so after the run the array is the column of all row losses. The host then recasts the column
  as a vector, sums it and divides by 8192: the mean of the row losses.
-/
import proofs.«132058_j50354196578629_2_alg».proof.Proof.Gen.KernelIdeal.Frame
import proofs.«132058_j50354196578629_2_alg».proof.Proof.BodyRows
import Idealize.ShloMosaic.Lib.Pipeline.Value
import Idealize.ShloMosaic.Lib.ValueIdx
import Idealize.ShloMosaic.Lib.StableHlo.Run

set_option maxRecDepth 16384

noncomputable section

namespace Cert.KernelIdeal.ArrayValue

open Idealize.ShloMosaic Idealize.ShloMosaic.TcCoe Idealize.ShloMosaic.ValueIdx Idealize.SL.Sem
open Cert.KernelIdeal Cert.KernelIdeal.Gen Cert.KernelIdeal.BodyRows
open Idealize.ShloMosaic.Pipeline (Dat)
open scoped BigOperators

variable (m : (ℓ : Loc nD τ sig) → Buf (Elt Ideal) ℓ) (ρ : Dev nD → PrngReg)

/-! ## The whole-array function -/

/-- Row `r`'s loss, in the four-reduction form, from the two argument arrays. -/
def rowLoss (a0 a1 : FVec Ideal S8192x8000 .f32) (r : Fin 8192) : EReal :=
  RowLoss.reducedForm (fun c : Fin 8000 => Ideal.cmp .oge (a1 (ix2 r c)) (Ideal.ofBits .f32 0xB58637BD#32))
    (fun c : Fin 8000 => Scalar.select (Ideal.cmp .oge (a1 (ix2 r c)) (Ideal.ofBits .f32 0xB58637BD#32))
      (a0 (ix2 r c)) (Ideal.ofBits .f32 0xFF7FFFFF#32))
    (fun c : Fin 8000 => a0 (ix2 r c)) (fun c : Fin 8000 => a1 (ix2 r c))

/-- The column of the 8192 row losses. -/
def lossColumn (a0 a1 : FVec Ideal S8192x8000 .f32) : FVec Ideal S8192x1 .f32 :=
  fun i => rowLoss a0 a1 ⟨(i 0).val, idx2_lt0 i⟩

/-- The mean of a column of 8192 values, as the host takes it: recast as a vector, summed, divided by 8192. -/
def meanOfColumn (col : FVec Ideal S8192x1 .f32) : FVec Ideal S_ .f32 :=
  Host.divf (F := Ideal)
    (Host.reduceAdd (F := Ideal) (shapeCast S8192 col shapeCasts_S8192x1_S8192) (constant (F := Ideal) S_ .f32 0x00000000#32)
      reducesTo_S8192_S_d0 h_S_)
    (constant (F := Ideal) S_ .f32 0x46000000#32)

/-! ## Blocks -/

theorem hz : (![0, 0] : Fin 2 → Nat) = fun _ => 0 := funext fun a => by fin_cases a <;> rfl

/-- Every window's block at point `t` is block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The logits' block at point `t`, at `(q, k)`, is the logits at row `128 t + q`, class `k`. -/
theorem iblk0_apply (c : Dev nD) (t : Fin cfg0.N) (q : Fin 128) (k : Fin 8000) (r : Fin 8192)
    (hr : r.val = t.val * 128 + q.val) :
    (iblk m c 0 t : Vec Ideal S128x8000 .f32) (ix2 q k) = (V m c main_arg0 : FVec Ideal S8192x8000 .f32) (ix2 r k) := by
  obtain ⟨e0, e1, -, -, -, -⟩ := idx_facts t
  unfold iblk
  rw [View.read_apply]
  show V m c main_arg0 _ = V m c main_arg0 _
  refine congrArg (V m c main_arg0) ?_
  funext a
  apply Fin.ext
  match a with
  | ⟨0, _⟩ => show win0_0.index t 0 * 128 + 1 * q.val = r.val; rw [e0, hr]; omega
  | ⟨1, _⟩ => show win0_0.index t 1 * 8000 + 1 * k.val = k.val; rw [e1]; omega

/-- The targets' block likewise. -/
theorem iblk1_apply (c : Dev nD) (t : Fin cfg0.N) (q : Fin 128) (k : Fin 8000) (r : Fin 8192)
    (hr : r.val = t.val * 128 + q.val) :
    (iblk m c 1 t : Vec Ideal S128x8000 .f32) (ix2 q k) = (V m c main_arg1 : FVec Ideal S8192x8000 .f32) (ix2 r k) := by
  obtain ⟨-, -, e2, e3, -, -⟩ := idx_facts t
  unfold iblk
  rw [View.read_apply]
  show V m c main_arg1 _ = V m c main_arg1 _
  refine congrArg (V m c main_arg1) ?_
  funext a
  apply Fin.ext
  match a with
  | ⟨0, _⟩ => show win0_1.index t 0 * 128 + 1 * q.val = r.val; rw [e2, hr]; omega
  | ⟨1, _⟩ => show win0_1.index t 1 * 8000 + 1 * k.val = k.val; rw [e3]; omega

/-- What the body stores at entry `y` of its block at point `t` is the loss column at that entry's place in the array. -/
theorem stored_apply (c : Dev nD) (t : Fin cfg0.N) (y : S128x1.Idx) :
    k0_pay1 (F := Ideal) (iblk m c 0 t) (iblk m c 1 t) y
      = lossColumn (V m c main_arg0) (V m c main_arg1) (((cfg0.win 2).blk t).view.emb y) := by
  obtain ⟨q, u, rfl⟩ : ∃ (q : Fin 128) (u : Fin 1), y = ix2 q u := ⟨y 0, y 1, eq_ix2 y⟩
  refine (payload_apply (iblk m c 0 t) (iblk m c 1 t) q u).trans ?_
  have hr : ((((cfg0.win 2).blk t).view.emb (ix2 q u)) 0).val = t.val * 128 + q.val := by
    obtain ⟨-, -, -, -, e4, -⟩ := idx_facts t
    show win0_2.index t 0 * 128 + 1 * q.val = _
    rw [e4]; omega
  have h0 : ∀ k : Fin 8000, (iblk m c 0 t : Vec Ideal S128x8000 .f32) (ix2 q k)
      = (V m c main_arg0 : FVec Ideal S8192x8000 .f32) (ix2 ⟨_, idx2_lt0 (((cfg0.win 2).blk t).view.emb (ix2 q u))⟩ k) :=
    fun k => iblk0_apply m c t q k _ hr
  have h1 : ∀ k : Fin 8000, (iblk m c 1 t : Vec Ideal S128x8000 .f32) (ix2 q k)
      = (V m c main_arg1 : FVec Ideal S8192x8000 .f32) (ix2 ⟨_, idx2_lt0 (((cfg0.win 2).blk t).view.emb (ix2 q u))⟩ k) :=
    fun k => iblk1_apply m c t q k _ hr
  unfold lossColumn rowLoss
  simp only [h0, h1]

/-- WHAT POINT `t` WRITES BACK is block `t` of the loss column of the argument arrays. -/
theorem flushed_eq (c : Dev nD) (t : Fin cfg0.N) :
    (dats m 0 c).flushed 2 t
      = ((cfg0.win 2).blk t).view.read (Elt Ideal) (lossColumn (V m c main_arg0) (V m c main_arg1)) := by
  show (cfg0.win 2).cut (grid0.coords t) ((dats m 0 c).after 2 t) = _
  rw [after0_2]
  unfold out0_2
  rw [View.canon_unit_zero hz]
  simp only [View.ld_unit_zero (S := S128x8000) hz]
  funext y
  exact stored_apply m c t y

/-- An index of the array is in point `t`'s block iff each coordinate is in the block's range on its axis. -/
theorem mem_blk (t : Fin cfg0.N) (i : S8192x1.Idx) :
    i ∈ ((cfg0.win 2).blk t).view.set ↔ ∀ a : Fin 2, win0_2.index t a * S128x1.size a ≤ (i a).val
      ∧ (i a).val < win0_2.index t a * S128x1.size a + S128x1.size a := by
  show i ∈ ((View.whole main_v0).slice (win0_2.rect t)).set ↔ _
  rw [View.set_slice_whole, Rect.mem_set_unit]
  exact Iff.rfl

/-- The 64 blocks cover the 8192 rows: row `r` lies in the block of point `r / 128`. -/
theorem cover (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 64 := N_0
  refine ⟨⟨(i 0).val / 128, by rw [hN]; omega⟩, flush0_2 _, ?_⟩
  obtain ⟨-, -, -, -, e4, e5⟩ := idx_facts ⟨(i 0).val / 128, by rw [hN]; omega⟩
  rw [mem_blk]
  intro a
  match a with
  | ⟨0, _⟩ =>
    show win0_2.index _ (0 : Fin 2) * 128 ≤ (i 0).val ∧ (i 0).val < win0_2.index _ (0 : Fin 2) * 128 + 128
    rw [e4]
    show (i 0).val / 128 * 128 ≤ (i 0).val ∧ (i 0).val < (i 0).val / 128 * 128 + 128
    omega
  | ⟨1, _⟩ =>
    show win0_2.index _ (1 : Fin 2) * 1 ≤ (i 1).val ∧ (i 1).val < win0_2.index _ (1 : Fin 2) * 1 + 1
    rw [e5]
    omega

/-- THE ARRAY after the run: the loss column of the argument arrays. -/
theorem final (c : Dev nD) :
    (dats m 0 c).arrAt 2 cfg0.N = lossColumn (V m c main_arg0) (V m c main_arg1) :=
  (dats m 0 c).arrAt_eq_of_cover 2 (lossColumn (V m c main_arg0) (V m c main_arg1))
    (fun t _ => flushed_eq m c t) (fun i => cover i)

/-! ## The host's tail and the run -/

/-- After the region the host leaves, in the result buffer, the mean of the loss column. -/
theorem tail_eq (c : Dev nD) :
    Pipeline.afterTail₀ cfgs (dats m) 0 (V0 m) [hostOps1] c main_v3
      = meanOfColumn (lossColumn (V m c main_arg0) (V m c main_arg1)) := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.devRef .tc main_v0) = lossColumn (V m c main_arg0) (V m c main_arg1) :=
    (Pipeline.withArrays_arr spec0 launch0.win.arr_inj c _ _ 2).trans (final m c)
  rw [hw]
  rfl

/-- From any memory with zero counters, every weakly fair execution of the kernel program terminates with the result
    at the mean of the loss column of the argument arrays, and the argument arrays unchanged. -/
theorem run : θ_run defs (onTc (τ := τ) (main (F := Ideal))) ⟨m, fun _ => 0, ρ⟩ fun r => ∀ c : Dev nD,
      r.2.mem ((c.tc : Thread nD τ).loc main_v3)
          = meanOfColumn (lossColumn (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v3 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.ArrayValue

end
-- ==== Proof.Finite.lean ====
/-
  From the precondition to real entries.

  The precondition says, of each argument array, that every entry's absolute value is below plus infinity. An extended
  real whose absolute value `max x (-x)` is below plus infinity is neither infinity, so it is a real number. The
  precondition is the conjunction of two `all`-reductions, each of which being one makes the compared bit one at every
  index.
-/
import proofs.«132058_j50354196578629_2_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.Pre_finite_inputs.Finite

open Idealize.ShloMosaic Cert.Pre_finite_inputs

/-- A shape with no axis has one index. -/
instance : Subsingleton S_.Idx := ⟨fun _ _ => funext fun d => d.elim0⟩

/-- The pattern of plus infinity denotes the greatest extended real. -/
theorem ofBits_pos_inf : Ideal.ofBits .f32 0x7F800000#32 = ⊤ := by
  simp [Ideal.ofBits, Ideal.ieee]

/-- An extended real whose absolute value is below plus infinity is a real number. -/
theorem real_of_abs_lt (x : EReal)
    (h : Ideal.cmp .olt (max x (-x)) (Ideal.ofBits .f32 0x7F800000#32) = 1#1) : ∃ r : ℝ, x = (r : EReal) := by
  rw [ofBits_pos_inf] at h
  induction x using EReal.rec with
  | bot => simp [Ideal.cmp] at h
  | top => simp [Ideal.cmp] at h
  | coe r => exact ⟨r, rfl⟩

variable [Facts]

/-- Under the precondition every entry of both argument arrays is a real number. -/
theorem entries_real (a0 a1 : FVec Ideal S8192x8000 .f32) (h : fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [fn] at h0
  obtain ⟨h1, h2⟩ := IntOp.andi_eq_one.mp h0
  refine ⟨fun i => ?_, fun i => ?_⟩
  · have e := Host.reduce_andi_all _ _ _ _ _ h1 i
    exact real_of_abs_lt _ e
  · have e := Host.reduce_andi_all _ _ _ _ _ h2 i
    exact real_of_abs_lt _ e

end Cert.Pre_finite_inputs.Finite

end
-- ==== Proof.HostRows.lean ====
/-
  The reference's row losses, read at a row.

  At the exact values, row `r` of the reference's loss vector is the sum, over the kept classes `c` of the row, of
  minus the target times the log-softmax of the masked logits at `(r, c)` — the arrangement `RowLoss.sumForm` of
  the row's loss. Reading it takes the layout steps of the log-softmax at an entry (a scalar spread over the matrix,
  a row vector stood up as a column, a column spread over the lanes) and the two row reductions: the host's sum
  over the classes is its initial value plus the sum of the row's entries, and its maximum over the classes is the
  fold of `max` over the row's entries from its initial value.
-/
import proofs.«132058_j50354196578629_2_alg».proof.Proof.HostRun
import proofs.«132058_j50354196578629_2_alg».proof.Proof.RowLoss
import Idealize.ShloMosaic.Lib.Pipeline.Value
import Idealize.ShloMosaic.Lib.ValueIdx
import Idealize.ShloMosaic.PureOps.Ideal.Laws

noncomputable section

namespace Cert.ReferenceIdeal.HostRows

open Idealize.ShloMosaic Idealize.ShloMosaic.ValueIdx Cert.ReferenceIdeal Cert.ReferenceIdeal.Gen Cert.ReferenceIdeal.HostRun
open scoped BigOperators

/-! ## Layout steps at an entry -/

section Layout
variable {α : Type}

/-- A scalar spread over the whole matrix reads the scalar. -/
theorem spreadScalar_apply (h : S_.BroadcastsInDim S8192x8000 (![] : Fin 0 → Fin S8192x8000.rank)) (z : S_.Idx → α)
    (i : S8192x8000.Idx) : broadcastInDim S8192x8000 ![] h z i = z ix0 :=
  broadcastInDim_apply _ h z i ix0 (fun a => a.elim0)

/-- A scalar spread over a vector of rows reads the scalar. -/
theorem spreadScalarRows_apply (h : S_.BroadcastsInDim S8192 (![] : Fin 0 → Fin S8192.rank)) (z : S_.Idx → α)
    (i : S8192.Idx) : broadcastInDim S8192 ![] h z i = z ix0 :=
  broadcastInDim_apply _ h z i ix0 (fun a => a.elim0)

/-- A vector of rows stood up as a column reads, at `(r, 0)`, entry `r`. -/
theorem column_apply (h : S8192.BroadcastsInDim S8192x1 (![0] : Fin 1 → Fin S8192x1.rank)) (v : S8192.Idx → α)
    (r : Fin 8192) (u : Fin 1) : broadcastInDim S8192x1 ![0] h v (ix2 r u) = v (ix1 r) :=
  broadcastInDim_apply _ h v (ix2 r u) (ix1 r) (fun a => match a with
    | ⟨0, _⟩ => by show r.val = if (8192 : Nat) = 1 then 0 else r.val; rw [if_neg (by decide)])

/-- A column spread over the lanes reads, at `(r, c)`, the column's entry `r`. -/
theorem spreadColumn_apply (h : S8192x1.BroadcastsInDim S8192x8000 (![0, 1] : Fin 2 → Fin S8192x8000.rank))
    (w : S8192x1.Idx → α) (r : Fin 8192) (c : Fin 8000) :
    broadcastInDim S8192x8000 ![0, 1] h w (ix2 r c) = w (ix2 r (0 : Fin 1)) :=
  broadcastInDim_apply _ h w (ix2 r c) (ix2 r (0 : Fin 1)) (fun a => match a with
    | ⟨0, _⟩ => by show r.val = if (8192 : Nat) = 1 then 0 else r.val; rw [if_neg (by decide)]
    | ⟨1, _⟩ => by show (0 : Nat) = if (1 : Nat) = 1 then 0 else c.val; rw [if_pos rfl])

end Layout

/-! ## The entrywise host operations and the two row reductions, at the exact values -/

theorem hostNegf_apply (x : FVec Ideal S8192x8000 .f32) (i : S8192x8000.Idx) : Host.negf x i = -(x i) := rfl
theorem hostExp_apply (x : FVec Ideal S8192x8000 .f32) (i : S8192x8000.Idx) : Host.exp x i = Ideal.exp (x i) := rfl
theorem hostLog_apply (x : FVec Ideal S8192x1 .f32) (i : S8192x1.Idx) : Host.log x i = Ideal.log (x i) := rfl

/-- The host's sum over the classes, at row `r`: the initial value plus the sum of the row's entries. -/
theorem hostRowSum_apply (x : FVec Ideal S8192x8000 .f32) (z : FVec Ideal S_ .f32)
    (h' : S8192x8000.ReducesTo [1] S8192) (hS : 0 < S_.numel) (r : Fin 8192) :
    Host.reduceAdd x z h' hS (ix1 r) = z (Shape.Idx.first hS) + ∑ c : Fin 8000, x (ix2 r c) := by
  simp only [Host.reduceAdd, Ideal.hostReduceAdd_def]
  rw [Ideal.hostReduceAdd_single h' (by decide)]
  refine congrArg (_ + ·) (Finset.sum_congr rfl fun k _ => ?_)
  exact congrArg x (funext fun a => Fin.ext (by match a with | ⟨0, _⟩ => rfl | ⟨1, _⟩ => rfl))

/-- The host's maximum over the classes, at row `r`: the fold of `max` over the row's entries from the initial value. -/
theorem hostRowMax_apply (x : FVec Ideal S8192x8000 .f32) (z : FVec Ideal S_ .f32)
    (h' : S8192x8000.ReducesTo [1] S8192) (hS : 0 < S_.numel) (r : Fin 8192) :
    Host.reduce FloatOps.maximumf x z h' hS (ix1 r)
      = (Finset.univ : Finset (Fin 8000)).fold max (z (Shape.Idx.first hS)) (fun c => x (ix2 r c)) := by
  have h : S8192x8000.Reduces [1] S8192 := by decide
  refine (Host.reduce_eq_fold_single FloatOps.maximumf x z h' h hS (ix1 r)).trans ?_
  exact congrArg (fun f => (Finset.univ : Finset (Fin 8000)).fold max (z (Shape.Idx.first hS)) f)
    (funext fun k => congrArg x (funext fun a => Fin.ext (by match a with | ⟨0, _⟩ => rfl | ⟨1, _⟩ => rfl)))

/-! ## A row of the loss vector -/

/-- Row `r` of the reference's loss vector is the sum form of that row's loss. -/
theorem rowLosses_apply (p t : FVec Ideal S8192x8000 .f32) (r : Fin 8192) :
    rowLosses (F := Ideal) p t (ix1 r)
      = RowLoss.sumForm (fun c : Fin 8000 => Ideal.cmp .oge (t (ix2 r c)) (Ideal.ofBits .f32 0xB58637BD#32))
          (fun c : Fin 8000 => Scalar.select (Ideal.cmp .oge (t (ix2 r c)) (Ideal.ofBits .f32 0xB58637BD#32))
            (p (ix2 r c)) (Ideal.ofBits .f32 0xFF7FFFFF#32))
          (fun c : Fin 8000 => t (ix2 r c)) := by
  -- the keep-bit and the masked logit at an entry
  have hk : ∀ c : Fin 8000, keepMask (F := Ideal) t (ix2 r c)
      = Ideal.cmp .oge (t (ix2 r c)) (Ideal.ofBits .f32 0xB58637BD#32) := fun c => by
    unfold keepMask
    rw [cmpf_apply, spreadScalar_apply]
    rfl
  have hl : ∀ c : Fin 8000, maskedLogits (F := Ideal) p t (ix2 r c)
      = Scalar.select (Ideal.cmp .oge (t (ix2 r c)) (Ideal.ofBits .f32 0xB58637BD#32)) (p (ix2 r c))
          (Ideal.ofBits .f32 0xFF7FFFFF#32) := fun c => by
    unfold maskedLogits
    rw [select_apply, hk, spreadScalar_apply]
    rfl
  have hlf : (fun c : Fin 8000 => maskedLogits (F := Ideal) p t (ix2 r c))
      = fun c : Fin 8000 => Scalar.select (Ideal.cmp .oge (t (ix2 r c)) (Ideal.ofBits .f32 0xB58637BD#32)) (p (ix2 r c))
          (Ideal.ofBits .f32 0xFF7FFFFF#32) := funext hl
  -- the row's maximum
  have hM : rowMaxes (F := Ideal) (maskedLogits p t) (ix1 r)
      = RowLoss.rowMax (fun c : Fin 8000 => maskedLogits (F := Ideal) p t (ix2 r c)) := by
    unfold rowMaxes RowLoss.rowMax
    rw [maximumf_apply, spreadScalarRows_apply, hostRowMax_apply]
    show max (Ideal.ofBits .f32 0xFF800000#32)
      ((Finset.univ : Finset (Fin 8000)).fold max (Ideal.ofBits .f32 0xFF800000#32) _) = _
    rw [RowLoss.ofBits_neg_inf, max_eq_right bot_le]
  -- the shifted entries, the row's log-sum-exp, the log-softmax
  have hs : ∀ c : Fin 8000, shifted (F := Ideal) (maskedLogits p t) (ix2 r c)
      = maskedLogits (F := Ideal) p t (ix2 r c)
        - RowLoss.rowMax (fun c : Fin 8000 => maskedLogits (F := Ideal) p t (ix2 r c)) := fun c => by
    unfold shifted
    rw [subf_apply, spreadColumn_apply, column_apply, hM]
  have hL : logSumExp (F := Ideal) (shifted (maskedLogits p t)) (ix2 r (0 : Fin 1))
      = RowLoss.logZ (fun c : Fin 8000 => maskedLogits (F := Ideal) p t (ix2 r c)) := by
    unfold logSumExp RowLoss.logZ
    rw [hostLog_apply, column_apply, hostRowSum_apply]
    show Ideal.log (Ideal.ofBits .f32 0x00000000#32
      + ∑ c : Fin 8000, Ideal.exp (shifted (F := Ideal) (maskedLogits p t) (ix2 r c))) = _
    rw [Ideal.ofBits_zero_f32, zero_add]
    simp only [hs]
  have hls : ∀ c : Fin 8000, logSoftmax (F := Ideal) (maskedLogits p t) (ix2 r c)
      = (maskedLogits (F := Ideal) p t (ix2 r c)
          - RowLoss.rowMax (fun c : Fin 8000 => maskedLogits (F := Ideal) p t (ix2 r c)))
        - RowLoss.logZ (fun c : Fin 8000 => maskedLogits (F := Ideal) p t (ix2 r c)) := fun c => by
    unfold logSoftmax lessLogSumExp
    rw [subf_apply, spreadColumn_apply, hs, hL]
  -- the row's sum
  unfold rowLosses rowLossesOf RowLoss.sumForm
  rw [hostRowSum_apply]
  show Ideal.ofBits .f32 0x00000000#32 + ∑ c : Fin 8000,
      Scalar.select (keepMask (F := Ideal) t (ix2 r c))
        (-(t (ix2 r c)) * logSoftmax (F := Ideal) (maskedLogits p t) (ix2 r c))
        (broadcastInDim S8192x8000 ![] bcast_S_S8192x8000 (id (constant (F := Ideal) S_ .f32 0x00000000#32)) (ix2 r c)) = _
  rw [Ideal.ofBits_zero_f32, zero_add, ← hlf]
  refine Finset.sum_congr rfl fun c _ => ?_
  rw [hk, hls, spreadScalar_apply]
  show Scalar.select _ _ (Ideal.ofBits .f32 0x00000000#32) = _
  rw [Ideal.ofBits_zero_f32]

end Cert.ReferenceIdeal.HostRows

end
-- ==== Proof.LibColumnVector.lean ====
/-
  A general lemma file: a column `[a, 1]` recast as a vector `[a]`, read at an index. The counterpart of standing
  a vector up as a column: both orders enumerate the same `a` entries, so entry `i` of the vector is entry
  `(i, 0)` of the column. General over the extent `a`.
-/
import Idealize.ShloMosaic.Lib.Pipeline.Value
import Idealize.ShloMosaic.Lib.ValueIdx

namespace Idealize.ShloMosaic.ColumnVector

open Idealize.ShloMosaic Idealize.ShloMosaic.ValueIdx

variable {α : Type}

/-- A column `[a, 1]` recast as a vector `[a]` reads, at `i`, the column's entry `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ColumnVector
-- ==== Proof.Bridge.lean ====
/-
  The two programs compute one number.

  Row by row: the kernel's output column holds, at row `r`, the four-reduction form of the row's loss, and the
  reference's loss vector holds the sum form of the same row. When every logit and every target is a real number the
  two forms agree (`RowLoss.reducedForm_eq_sumForm`: the fill value of a dropped class is the least finite float, a
  real, and a row has 8000 classes, so the row's maximum and its log-sum-exp are real). Hence the kernel's column,
  recast as a vector, is the reference's vector, and the mean the host takes of either — the same sum over 8192 rows,
  the same division by 8192 — is the same number.
-/
import proofs.«132058_j50354196578629_2_alg».proof.Proof.HostRows
import proofs.«132058_j50354196578629_2_alg».proof.Proof.ArrayValue
import proofs.«132058_j50354196578629_2_alg».proof.Proof.LibColumnVector

noncomputable section

namespace Cert.Bridge

open Idealize.ShloMosaic Idealize.ShloMosaic.ValueIdx Idealize.ShloMosaic.ColumnVector
open Cert.ReferenceIdeal.HostRun Cert.KernelIdeal.ArrayValue

/-- With real entries, the reference's loss vector is the kernel's loss column recast as a vector. -/
theorem rows_eq (p t : FVec Ideal Cert.ReferenceIdeal.S8192x8000 .f32)
    (hp : ∀ i, ∃ r : ℝ, p i = (r : EReal)) (ht : ∀ i, ∃ r : ℝ, t i = (r : EReal)) :
    rowLosses (F := Ideal) p t
      = shapeCast Cert.KernelIdeal.S8192 (lossColumn p t) Cert.KernelIdeal.Gen.shapeCasts_S8192x1_S8192 := by
  funext j
  obtain ⟨r, rfl⟩ : ∃ r : Fin 8192, j = ix1 r := ⟨j 0, eq_ix1 j⟩
  refine (Cert.ReferenceIdeal.HostRows.rowLosses_apply p t r).trans ?_
  refine Eq.trans ?_ (shapeCast_a1_a_apply (lossColumn p t) Cert.KernelIdeal.Gen.shapeCasts_S8192x1_S8192 r).symm
  show _ = rowLoss p t r
  unfold rowLoss
  choose pr hpr using hp
  choose tr htr using ht
  simp only [hpr, htr, Cert.RowLoss.ofBits_least_finite]
  exact (Cert.RowLoss.reducedForm_eq_sumForm (by decide : 0 < 8000) _ _ _ _).symm

/-- So the two means are one number. -/
theorem mean_eq (p t : FVec Ideal Cert.ReferenceIdeal.S8192x8000 .f32)
    (hp : ∀ i, ∃ r : ℝ, p i = (r : EReal)) (ht : ∀ i, ∃ r : ℝ, t i = (r : EReal)) :
    meanLoss (F := Ideal) p t = meanOfColumn (lossColumn p t) := by
  unfold meanLoss meanOfRows meanOfColumn
  rw [rows_eq p t hp ht]

end Cert.Bridge

end
-- ==== Proof.lean ====
/-
  Masked cross-entropy, mean over rows: the kernel against its reference, on the extended reals.

  Both programs take logits and targets of shape [8192, 8000]. A class of a row counts when its target is at least
  `-1e-6`; a class that does not count has its logit replaced by the least finite float. The loss of a row is the sum,
  over the classes that count, of minus the target times the logarithm of the softmax of the row's masked logits, and
  the result is the mean of the 8192 row losses.

  The reference computes the log-softmax entry by entry, `(l - M) - L` with `M` the row's maximum and `L` the
  logarithm of the row's sum of `exp (l - M)`, and sums `-(t) · ((l - M) - L)` over the kept classes. The kernel,
  128 rows per grid point, takes four row reductions — `M`, the sum of exponentials, the kept targets' sum `S1`,
  the kept products' sum `S2` — and stores `(M + L) · S1 - S2`. On a kept class the masked logit is the logit, so
  the two differ by distributing the target over `p - (M + L)` and taking `M + L` out of a sum: true of reals, and
  the precondition (every input finite) makes every quantity real — a row has 8000 classes, its greatest masked logit
  is real, its sum of exponentials is a positive real. The 64 blocks tile the rows, and both programs end by the same
  sum over rows and division by 8192.

  The frames of the two kernel programs are the generated ones; the reference's frame is its run with the result
  dropped; no operation was rewritten by the idealization, so `preserves` is trivial.
-/
import proofs.«132058_j50354196578629_2_alg».proof.Defs
import proofs.«132058_j50354196578629_2_alg».proof.Proof.Gen.Kernel
import proofs.«132058_j50354196578629_2_alg».proof.Proof.Gen.Kernel.Skeleton
import proofs.«132058_j50354196578629_2_alg».proof.Proof.Gen.Kernel.Launch
import proofs.«132058_j50354196578629_2_alg».proof.Proof.Gen.Kernel.Points
import proofs.«132058_j50354196578629_2_alg».proof.Proof.Gen.Kernel.Frame
import proofs.«132058_j50354196578629_2_alg».proof.Proof.Gen.KernelIdeal
import proofs.«132058_j50354196578629_2_alg».proof.Proof.Gen.KernelIdeal.Skeleton
import proofs.«132058_j50354196578629_2_alg».proof.Proof.Gen.KernelIdeal.Launch
import proofs.«132058_j50354196578629_2_alg».proof.Proof.Gen.KernelIdeal.Points
import proofs.«132058_j50354196578629_2_alg».proof.Proof.Gen.KernelIdeal.Frame
import proofs.«132058_j50354196578629_2_alg».proof.Proof.Gen.ReferenceIdeal
import proofs.«132058_j50354196578629_2_alg».proof.Proof.Gen.Pre_finite_inputs
import proofs.«132058_j50354196578629_2_alg».proof.Proof.HostRun
import proofs.«132058_j50354196578629_2_alg».proof.Proof.ArrayValue
import proofs.«132058_j50354196578629_2_alg».proof.Proof.Finite
import proofs.«132058_j50354196578629_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.HostRun.run (F := Ideal) m ρ)

/-- The idealization rewrote no operation. -/
theorem preserves : Cert.preserves_Kernel_KernelIdeal := trivial

/-- From memories agreeing on finite arguments the kernel ends at the mean of its loss column and the reference at the
    mean of its loss vector: one number, since row by row the two arrangements of the loss agree on reals. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2]
  obtain ⟨hp, ht⟩ := Cert.Pre_finite_inputs.Finite.entries_real _ _ (hpre c)
  exact Cert.Bridge.mean_eq _ _ hp ht

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
